-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512 : Shape := ⟨1, ![512]⟩
abbrev S1x512x2048 : Shape := ⟨3, ![1, 512, 2048]⟩
abbrev S32000x1024 : Shape := ⟨2, ![32000, 1024]⟩
abbrev S6144x1024 : Shape := ⟨2, ![6144, 1024]⟩
abbrev S6144x2048 : Shape := ⟨2, ![6144, 2048]⟩
abbrev S6144 : Shape := ⟨1, ![6144]⟩
abbrev S32000x2048 : Shape := ⟨2, ![32000, 2048]⟩
abbrev S32000 : Shape := ⟨1, ![32000]⟩
abbrev S_ : Shape := ⟨0, ![]⟩

class Facts : Prop where
  bcast_S_S1x512x2048 : S_.BroadcastsInDim S1x512x2048 (![] : Fin 0 → Fin S1x512x2048.rank)
  reducesTo_S1x512x2048_S_d0_1_2 : S1x512x2048.ReducesTo [0, 1, 2] S_
  h_S_ : 0 < S_.numel
  bcast_S_S32000x1024 : S_.BroadcastsInDim S32000x1024 (![] : Fin 0 → Fin S32000x1024.rank)
  reducesTo_S32000x1024_S_d0_1 : S32000x1024.ReducesTo [0, 1] S_
  bcast_S_S6144x1024 : S_.BroadcastsInDim S6144x1024 (![] : Fin 0 → Fin S6144x1024.rank)
  reducesTo_S6144x1024_S_d0_1 : S6144x1024.ReducesTo [0, 1] S_
  bcast_S_S6144x2048 : S_.BroadcastsInDim S6144x2048 (![] : Fin 0 → Fin S6144x2048.rank)
  reducesTo_S6144x2048_S_d0_1 : S6144x2048.ReducesTo [0, 1] S_
  bcast_S_S6144 : S_.BroadcastsInDim S6144 (![] : Fin 0 → Fin S6144.rank)
  reducesTo_S6144_S_d0 : S6144.ReducesTo [0] S_
  bcast_S_S32000x2048 : S_.BroadcastsInDim S32000x2048 (![] : Fin 0 → Fin S32000x2048.rank)
  reducesTo_S32000x2048_S_d0_1 : S32000x2048.ReducesTo [0, 1] S_
  bcast_S_S32000 : S_.BroadcastsInDim S32000 (![] : Fin 0 → Fin S32000.rank)
  reducesTo_S32000_S_d0 : S32000.ReducesTo [0] S_

variable [Facts]

def fn_part2 {F : FTy → Type} [FloatOps F] (main_arg8 : FVec F S32000 .f32) (main_v33 : IVec S_ 1) : IVec S_ 1 :=
  let main_v34 : FVec F S32000 .f32 := Host.absf main_arg8
  let main_cst_12 : FVec F S_ .f32 := constant S_ .f32 0x7F800000#32
  let main_v35 : FVec F S32000 .f32 := broadcastInDim S32000 ![] bcast_S_S32000 main_cst_12
  let main_v36 : IVec S32000 1 := cmpf .olt main_v34 main_v35
  let main_c_13 : IVec S_ 1 := constantI S_ 1 1#1
  let main_v37 : IVec S_ 1 := (fun x v => Host.reduce IntOp.andi x v reducesTo_S32000_S_d0 h_S_) main_v36 main_c_13
  let main_v38 : IVec S_ 1 := andi main_v33 main_v37
  main_v38

def fn_part1 {F : FTy → Type} [FloatOps F] (main_arg5 : FVec F S6144 .f32) (main_arg6 : FVec F S6144 .f32) (main_arg7 : FVec F S32000x2048 .f32) (main_arg8 : FVec F S32000 .f32) (main_v13 : IVec S_ 1) (main_v16 : IVec S6144x2048 1) : IVec S_ 1 :=
  let main_c_5 : IVec S_ 1 := constantI S_ 1 1#1
  let main_v17 : IVec S_ 1 := (fun x v => Host.reduce IntOp.andi x v reducesTo_S6144x2048_S_d0_1 h_S_) main_v16 main_c_5
  let main_v18 : IVec S_ 1 := andi main_v13 main_v17
  let main_v19 : FVec F S6144 .f32 := Host.absf main_arg5
  let main_cst_6 : FVec F S_ .f32 := constant S_ .f32 0x7F800000#32
  let main_v20 : FVec F S6144 .f32 := broadcastInDim S6144 ![] bcast_S_S6144 main_cst_6
  let main_v21 : IVec S6144 1 := cmpf .olt main_v19 main_v20
  let main_c_7 : IVec S_ 1 := constantI S_ 1 1#1
  let main_v22 : IVec S_ 1 := (fun x v => Host.reduce IntOp.andi x v reducesTo_S6144_S_d0 h_S_) main_v21 main_c_7
  let main_v23 : IVec S_ 1 := andi main_v18 main_v22
  let main_v24 : FVec F S6144 .f32 := Host.absf main_arg6
  let main_cst_8 : FVec F S_ .f32 := constant S_ .f32 0x7F800000#32
  let main_v25 : FVec F S6144 .f32 := broadcastInDim S6144 ![] bcast_S_S6144 main_cst_8
  let main_v26 : IVec S6144 1 := cmpf .olt main_v24 main_v25
  let main_c_9 : IVec S_ 1 := constantI S_ 1 1#1
  let main_v27 : IVec S_ 1 := (fun x v => Host.reduce IntOp.andi x v reducesTo_S6144_S_d0 h_S_) main_v26 main_c_9
  let main_v28 : IVec S_ 1 := andi main_v23 main_v27
  let main_v29 : FVec F S32000x2048 .f32 := Host.absf main_arg7
  let main_cst_10 : FVec F S_ .f32 := constant S_ .f32 0x7F800000#32
  let main_v30 : FVec F S32000x2048 .f32 := broadcastInDim S32000x2048 ![] bcast_S_S32000x2048 main_cst_10
  let main_v31 : IVec S32000x2048 1 := cmpf .olt main_v29 main_v30
  let main_c_11 : IVec S_ 1 := constantI S_ 1 1#1
  let main_v32 : IVec S_ 1 := (fun x v => Host.reduce IntOp.andi x v reducesTo_S32000x2048_S_d0_1 h_S_) main_v31 main_c_11
  let main_v33 : IVec S_ 1 := andi main_v28 main_v32
  fn_part2 (F := F) main_arg8 main_v33

def fn {F : FTy → Type} [FloatOps F] (main_arg0 : IVec S512 32) (main_arg1 : FVec F S1x512x2048 .f32) (main_arg2 : FVec F S32000x1024 .f32) (main_arg3 : FVec F S6144x1024 .f32) (main_arg4 : FVec F S6144x2048 .f32) (main_arg5 : FVec F S6144 .f32) (main_arg6 : FVec F S6144 .f32) (main_arg7 : FVec F S32000x2048 .f32) (main_arg8 : FVec F S32000 .f32) : IVec S_ 1 :=
  let main_v0 : FVec F S1x512x2048 .f32 := Host.absf main_arg1
  let main_cst : FVec F S_ .f32 := constant S_ .f32 0x7F800000#32
  let main_v1 : FVec F S1x512x2048 .f32 := broadcastInDim S1x512x2048 ![] bcast_S_S1x512x2048 main_cst
  let main_v2 : IVec S1x512x2048 1 := cmpf .olt main_v0 main_v1
  let main_c : IVec S_ 1 := constantI S_ 1 1#1
  let main_v3 : IVec S_ 1 := (fun x v => Host.reduce IntOp.andi x v reducesTo_S1x512x2048_S_d0_1_2 h_S_) main_v2 main_c
  let main_v4 : FVec F S32000x1024 .f32 := Host.absf main_arg2
  let main_cst_0 : FVec F S_ .f32 := constant S_ .f32 0x7F800000#32
  let main_v5 : FVec F S32000x1024 .f32 := broadcastInDim S32000x1024 ![] bcast_S_S32000x1024 main_cst_0
  let main_v6 : IVec S32000x1024 1 := cmpf .olt main_v4 main_v5
  let main_c_1 : IVec S_ 1 := constantI S_ 1 1#1
  let main_v7 : IVec S_ 1 := (fun x v => Host.reduce IntOp.andi x v reducesTo_S32000x1024_S_d0_1 h_S_) main_v6 main_c_1
  let main_v8 : IVec S_ 1 := andi main_v3 main_v7
  let main_v9 : FVec F S6144x1024 .f32 := Host.absf main_arg3
  let main_cst_2 : FVec F S_ .f32 := constant S_ .f32 0x7F800000#32
  let main_v10 : FVec F S6144x1024 .f32 := broadcastInDim S6144x1024 ![] bcast_S_S6144x1024 main_cst_2
  let main_v11 : IVec S6144x1024 1 := cmpf .olt main_v9 main_v10
  let main_c_3 : IVec S_ 1 := constantI S_ 1 1#1
  let main_v12 : IVec S_ 1 := (fun x v => Host.reduce IntOp.andi x v reducesTo_S6144x1024_S_d0_1 h_S_) main_v11 main_c_3
  let main_v13 : IVec S_ 1 := andi main_v8 main_v12
  let main_v14 : FVec F S6144x2048 .f32 := Host.absf main_arg4
  let main_cst_4 : FVec F S_ .f32 := constant S_ .f32 0x7F800000#32
  let main_v15 : FVec F S6144x2048 .f32 := broadcastInDim S6144x2048 ![] bcast_S_S6144x2048 main_cst_4
  let main_v16 : IVec S6144x2048 1 := cmpf .olt main_v14 main_v15
  fn_part1 (F := F) main_arg5 main_arg6 main_arg7 main_arg8 main_v13 main_v16
-- ==== Kernel.lean ====
abbrev S512 : Shape := ⟨1, ![512]⟩
abbrev S1x512x2048 : Shape := ⟨3, ![1, 512, 2048]⟩
abbrev S32000x1024 : Shape := ⟨2, ![32000, 1024]⟩
abbrev S6144x1024 : Shape := ⟨2, ![6144, 1024]⟩
abbrev S6144x2048 : Shape := ⟨2, ![6144, 2048]⟩
abbrev S6144 : Shape := ⟨1, ![6144]⟩
abbrev S32000x2048 : Shape := ⟨2, ![32000, 2048]⟩
abbrev S32000 : Shape := ⟨1, ![32000]⟩
abbrev S_ : Shape := ⟨0, ![]⟩
abbrev S512x1 : Shape := ⟨2, ![512, 1]⟩
abbrev S512x1024 : Shape := ⟨2, ![512, 1024]⟩
abbrev S512x2048 : Shape := ⟨2, ![512, 2048]⟩
abbrev S2048x1024 : Shape := ⟨2, ![2048, 1024]⟩
abbrev S2048x2048 : Shape := ⟨2, ![2048, 2048]⟩
abbrev S1x6144 : Shape := ⟨2, ![1, 6144]⟩
abbrev S1x2048 : Shape := ⟨2, ![1, 2048]⟩
abbrev S1x32000 : Shape := ⟨2, ![1, 32000]⟩
abbrev S128x1024 : Shape := ⟨2, ![128, 1024]⟩
abbrev S128x2048 : Shape := ⟨2, ![128, 2048]⟩
abbrev S1x128 : Shape := ⟨2, ![1, 128]⟩
abbrev S512x128 : Shape := ⟨2, ![512, 128]⟩
abbrev S512x32000 : Shape := ⟨2, ![512, 32000]⟩
abbrev S640x2048 : Shape := ⟨2, ![640, 2048]⟩
abbrev S1x640 : Shape := ⟨2, ![1, 640]⟩
abbrev S512x640 : Shape := ⟨2, ![512, 640]⟩

abbrev nBuf : Space → Nat
  | .hbm => 38
  | .vmem => 37
  | .smem => 0
  | _ => 0

abbrev bufTy : (tb : Table) → Fin (tcTables nBuf tb) → BufTy
  | .hbm, ⟨0, _⟩ => ⟨S512, .i32⟩
  | .hbm, ⟨1, _⟩ => ⟨S1x512x2048, .f32⟩
  | .hbm, ⟨2, _⟩ => ⟨S32000x1024, .f32⟩
  | .hbm, ⟨3, _⟩ => ⟨S6144x1024, .f32⟩
  | .hbm, ⟨4, _⟩ => ⟨S6144x2048, .f32⟩
  | .hbm, ⟨5, _⟩ => ⟨S6144, .f32⟩
  | .hbm, ⟨6, _⟩ => ⟨S6144, .f32⟩
  | .hbm, ⟨7, _⟩ => ⟨S32000x2048, .f32⟩
  | .hbm, ⟨8, _⟩ => ⟨S32000, .f32⟩
  | .hbm, ⟨9, _⟩ => ⟨S_, .i32⟩
  | .hbm, ⟨10, _⟩ => ⟨S512, .i32⟩
  | .hbm, ⟨11, _⟩ => ⟨S512, .i1⟩
  | .hbm, ⟨12, _⟩ => ⟨S_, .i32⟩
  | .hbm, ⟨13, _⟩ => ⟨S512, .i32⟩
  | .hbm, ⟨14, _⟩ => ⟨S512, .i32⟩
  | .hbm, ⟨15, _⟩ => ⟨S512, .i32⟩
  | .hbm, ⟨16, _⟩ => ⟨S512x1, .i32⟩
  | .hbm, ⟨17, _⟩ => ⟨S512x1024, .f32⟩
  | .hbm, ⟨18, _⟩ => ⟨S512x2048, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S1x6144, .f32⟩
  | .hbm, ⟨26, _⟩ => ⟨S1x6144, .f32⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S1x2048, .f32⟩
  | .hbm, ⟨31, _⟩ => ⟨S1x2048, .f32⟩
  | .hbm, ⟨32, _⟩ => ⟨S1x2048, .f32⟩
  | .hbm, ⟨33, _⟩ => ⟨S1x32000, .f32⟩
  | .hbm, ⟨34, _⟩ => ⟨S512x2048, .f32⟩
  | .hbm, ⟨35, _⟩ => ⟨S512x2048, .bf16⟩
  | .hbm, ⟨36, _⟩ => ⟨S512x32000, .f32⟩
  | .hbm, ⟨37, _⟩ => ⟨S1x512x2048, .f32⟩
  | .local _ .vmem, ⟨0, _⟩ => ⟨S512x1024, .f32⟩
  | .local _ .vmem, ⟨1, _⟩ => ⟨S512x2048, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S512x128, .f32⟩
  | .local _ .vmem, ⟨27, _⟩ => ⟨S512x128, .f32⟩
  | .local _ .vmem, ⟨28, _⟩ => ⟨S512x128, .bf16⟩
  | .local _ .vmem, ⟨29, _⟩ => ⟨S512x128, .bf16⟩
  | .local _ .vmem, ⟨30, _⟩ => ⟨S512x2048, .bf16⟩
  | .local _ .vmem, ⟨31, _⟩ => ⟨S640x2048, .f32⟩
  | .local _ .vmem, ⟨32, _⟩ => ⟨S640x2048, .f32⟩
  | .local _ .vmem, ⟨33, _⟩ => ⟨S1x640, .f32⟩
  | .local _ .vmem, ⟨34, _⟩ => ⟨S1x640, .f32⟩
  | .local _ .vmem, ⟨35, _⟩ => ⟨S512x640, .f32⟩
  | .local _ .vmem, ⟨36, _⟩ => ⟨S512x640, .f32⟩
  | _, _ => ⟨S512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23_0 : Ref sig .tc := ⟨.hbm, 34, rfl⟩
abbrev main_v23_1 : Ref sig .tc := ⟨.hbm, 35, rfl⟩
abbrev main_v24 : Ref sig .tc := ⟨.hbm, 36, rfl⟩
abbrev main_v25 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc1_stg0_0 : Ref sig .tc := ⟨.vmem, 30, rfl⟩
abbrev cc1_stg1_0 : Ref sig .tc := ⟨.vmem, 31, rfl⟩
abbrev cc1_stg1_1 : Ref sig .tc := ⟨.vmem, 32, rfl⟩
abbrev cc1_stg2_0 : Ref sig .tc := ⟨.vmem, 33, rfl⟩
abbrev cc1_stg2_1 : Ref sig .tc := ⟨.vmem, 34, rfl⟩
abbrev cc1_stg3_0 : Ref sig .tc := ⟨.vmem, 35, rfl⟩
abbrev cc1_stg3_1 : Ref sig .tc := ⟨.vmem, 36, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc1_sem0_0 : DmaSem sig := 30
abbrev cc1_sem1_0 : DmaSem sig := 31
abbrev cc1_sem1_1 : DmaSem sig := 32
abbrev cc1_sem2_0 : DmaSem sig := 33
abbrev cc1_sem2_1 : DmaSem sig := 34
abbrev cc1_sem3_0 : DmaSem sig := 35
abbrev cc1_sem3_1 : DmaSem sig := 36

abbrev nD : Nat := 1
abbrev τ : Topo := Topo.v7x

variable {F : FTy → Type} [FloatOps F]

abbrev grid0 : Pipeline.Grid := ⟨1, ![16], ![false]⟩

def k0_mult1 (i : grid0.Coords) : BitVec 32 :=
  let arg0 : BitVec 32 := BitVec.ofNat 32 (i 0).val
  let c128_i32 : BitVec 32 := 128#32
  let v0 : BitVec 32 := Scalar.muli arg0 c128_i32
  v0
def k0_off1 (i : grid0.Coords) : Fin 2 → Nat :=
  let c0_32 : Index := 0#32
  let arg0 : BitVec 32 := BitVec.ofNat 32 (i 0).val
  let c128_i32 : BitVec 32 := 128#32
  let v0 : BitVec 32 := Scalar.muli arg0 c128_i32
  let v1 : BitVec 32 := v0
  let v63 : Index := Scalar.indexCast v1
  ![0, v63.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S512x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S640x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x640 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x640 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S512 : S_.BroadcastsInDim S512 (![] : Fin 0 → Fin S512.rank)
  bcast_S512_S512x1_0 : S512.BroadcastsInDim S512x1 (![0] : Fin 1 → Fin S512x1.rank)
  shapeCasts_S1x512x2048_S512x2048 : S1x512x2048.ShapeCasts S512x2048
  slices_S6144x1024_S2048x1024_0_0 : S6144x1024.Slices ![0, 0] S2048x1024
  slices_S6144x1024_S2048x1024_2048_0 : S6144x1024.Slices ![2048, 0] S2048x1024
  slices_S6144x1024_S2048x1024_4096_0 : S6144x1024.Slices ![4096, 0] S2048x1024
  slices_S6144x2048_S2048x2048_0_0 : S6144x2048.Slices ![0, 0] S2048x2048
  slices_S6144x2048_S2048x2048_2048_0 : S6144x2048.Slices ![2048, 0] S2048x2048
  slices_S6144x2048_S2048x2048_4096_0 : S6144x2048.Slices ![4096, 0] S2048x2048
  shapeCasts_S6144_S1x6144 : S6144.ShapeCasts S1x6144
  slices_S1x6144_S1x2048_0_0 : S1x6144.Slices ![0, 0] S1x2048
  slices_S1x6144_S1x2048_0_2048 : S1x6144.Slices ![0, 2048] S1x2048
  slices_S1x6144_S1x2048_0_4096 : S1x6144.Slices ![0, 4096] S1x2048
  shapeCasts_S32000_S1x32000 : S32000.ShapeCasts S1x32000
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  h_S512x128 : 0 < S512x128.numel
  shapeCasts_S512x128_S512x128 : S512x128.ShapeCasts S512x128
  inb_S512x128_S512x128_0_0 : ∀ a, (![0, 0] : Fin 2 → Nat) a + S512x128.size a ≤ S512x128.size a
  packedbf16_S512x128_S512x128_0_0 : (Rect.unit (s := S512x128) ![0, 0] S512x128.size inb_S512x128_S512x128_0_0).PackedRows (EltTy.packing .bf16)
  inb_S640x2048_S640x2048_0_0 : ∀ a, (![0, 0] : Fin 2 → Nat) a + S640x2048.size a ≤ S640x2048.size a
  h_S640x2048 : 0 < S640x2048.numel
  inb_S1x640_S1x640_0_0 : ∀ a, (![0, 0] : Fin 2 → Nat) a + S1x640.size a ≤ S1x640.size a
  h_S1x640 : 0 < S1x640.numel
  shapeCasts_S1x640_S1x640 : S1x640.ShapeCasts S1x640
  broadcasts_S1x640_S512x640 : S1x640.Broadcasts S512x640
  inb_S512x640_S512x640_0_0 : ∀ a, (![0, 0] : Fin 2 → Nat) a + S512x640.size a ≤ S512x640.size a
  h_S512x640 : 0 < S512x640.numel
  bcast_S512x2048_S1x512x2048_1_2 : S512x2048.BroadcastsInDim S1x512x2048 (![1, 2] : Fin 2 → Fin S1x512x2048.rank)
  gather_S32000x1024_S512x1_S512x1024_1_0_n_n_0_1_11024_wf : GatherDims.WF S32000x1024 S512x1 S512x1024 [1] [0] [] [0] [] 1 ![1, 1024]
  dot_S512x1024_S128x1024_S512x128_1_1_0_0_n_n_wf : DotDims.WF S512x1024 S128x1024 S512x128 [1] [1] [0] [0] [] []
  dot_S512x2048_S128x2048_S512x128_1_1_0_0_n_n_wf : DotDims.WF S512x2048 S128x2048 S512x128 [1] [1] [0] [0] [] []
  dot_S512x2048_S640x2048_S512x640_1_1_0_0_n_n_wf : DotDims.WF S512x2048 S640x2048 S512x640 [1] [1] [0] [0] [] []
  hrank0 : 0 < grid0.rank
  k0_mult1_dvd : ∀ i : grid0.Coords, 128 ∣ (k0_mult1 i).toNat
  k0_off1_inb : ∀ i : grid0.Coords, ∀ a, (k0_off1 i) a + S512x128.size a ≤ S512x2048.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S512x1024.size a
  hwx0_0 : ∀ i : grid0.Coords, EltTy.bits .f32 = 32 ∨ (Rect.block (s := S512x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S512x2048.size a
  hwx0_1 : ∀ i : grid0.Coords, EltTy.bits .f32 = 32 ∨ (Rect.block (s := S512x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S2048x1024.size a
  hwx0_2 : ∀ i : grid0.Coords, EltTy.bits .f32 = 32 ∨ (Rect.block (s := S2048x1024) S128x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1024.size a ≤ S2048x1024.size a
  hwx0_3 : ∀ i : grid0.Coords, EltTy.bits .f32 = 32 ∨ (Rect.block (s := S2048x1024) S128x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x1024.size a ≤ S2048x1024.size a
  hwx0_4 : ∀ i : grid0.Coords, EltTy.bits .f32 = 32 ∨ (Rect.block (s := S2048x1024) S128x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x2048.size a ≤ S2048x2048.size a
  hwx0_5 : ∀ i : grid0.Coords, EltTy.bits .f32 = 32 ∨ (Rect.block (s := S2048x2048) S128x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x2048.size a ≤ S2048x2048.size a
  hwx0_6 : ∀ i : grid0.Coords, EltTy.bits .f32 = 32 ∨ (Rect.block (s := S2048x2048) S128x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x2048.size a ≤ S2048x2048.size a
  hwx0_7 : ∀ i : grid0.Coords, EltTy.bits .f32 = 32 ∨ (Rect.block (s := S2048x2048) S128x2048.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x2048.size a
  hwx0_8 : ∀ i : grid0.Coords, EltTy.bits .f32 = 32 ∨ (Rect.block (s := S1x2048) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x2048.size a
  hwx0_9 : ∀ i : grid0.Coords, EltTy.bits .f32 = 32 ∨ (Rect.block (s := S1x2048) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x2048.size a
  hwx0_10 : ∀ i : grid0.Coords, EltTy.bits .f32 = 32 ∨ (Rect.block (s := S1x2048) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x2048.size a
  hwx0_11 : ∀ i : grid0.Coords, EltTy.bits .f32 = 32 ∨ (Rect.block (s := S1x2048) S1x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x2048.size a
  hwx0_12 : ∀ i : grid0.Coords, EltTy.bits .f32 = 32 ∨ (Rect.block (s := S1x2048) S1x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x128.size a ≤ S1x2048.size a
  hwx0_13 : ∀ i : grid0.Coords, EltTy.bits .f32 = 32 ∨ (Rect.block (s := S1x2048) S1x128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S512x128.size a ≤ S512x2048.size a
  hwx0_14 : ∀ i : grid0.Coords, EltTy.bits .f32 = 32 ∨ (Rect.block (s := S512x2048) S512x128.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S512x128.size a ≤ S512x2048.size a
  hwx0_15 : ∀ i : grid0.Coords, EltTy.bits .bf16 = 32 ∨ (Rect.block (s := S512x2048) S512x128.size (cc0_transform_15 i) (hinb0_15 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S512x2048.size a
  hwx1_0 : ∀ i : grid1.Coords, EltTy.bits .bf16 = 32 ∨ (Rect.block (s := S512x2048) S512x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S640x2048.size a ≤ S32000x2048.size a
  hwx1_1 : ∀ i : grid1.Coords, EltTy.bits .f32 = 32 ∨ (Rect.block (s := S32000x2048) S640x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x640.size a ≤ S1x32000.size a
  hwx1_2 : ∀ i : grid1.Coords, EltTy.bits .f32 = 32 ∨ (Rect.block (s := S1x32000) S1x640.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x640.size a ≤ S512x32000.size a
  hwx1_3 : ∀ i : grid1.Coords, EltTy.bits .f32 = 32 ∨ (Rect.block (s := S512x32000) S512x640.size (cc1_transform_3 i) (hinb1_3 i)).WholeWords (EltTy.packing .f32)

variable [Facts₀]

def gather_S32000x1024_S512x1_S512x1024_1_0_n_n_0_1_11024 : GatherDims S32000x1024 S512x1 S512x1024 where
  offsetDims := [1]
  collapsedSliceDims := [0]
  operandBatchingDims := []
  startIndicesBatchingDims := []
  startIndexMap := [0]
  indexVectorDim := 1
  sliceSizes := ![1, 1024]
  wf := gather_S32000x1024_S512x1_S512x1024_1_0_n_n_0_1_11024_wf
def dot_S512x1024_S128x1024_S512x128_1_1_0_0_n_n : DotDims S512x1024 S128x1024 S512x128 where
  lhsContracting := [1]
  rhsContracting := [1]
  lhsNonContracting := [0]
  rhsNonContracting := [0]
  lhsBatch := []
  rhsBatch := []
  wf := dot_S512x1024_S128x1024_S512x128_1_1_0_0_n_n_wf
def dot_S512x2048_S128x2048_S512x128_1_1_0_0_n_n : DotDims S512x2048 S128x2048 S512x128 where
  lhsContracting := [1]
  rhsContracting := [1]
  lhsNonContracting := [0]
  rhsNonContracting := [0]
  lhsBatch := []
  rhsBatch := []
  wf := dot_S512x2048_S128x2048_S512x128_1_1_0_0_n_n_wf
def dot_S512x2048_S640x2048_S512x640_1_1_0_0_n_n : DotDims S512x2048 S640x2048 S512x640 where
  lhsContracting := [1]
  rhsContracting := [1]
  lhsNonContracting := [0]
  rhsNonContracting := [0]
  lhsBatch := []
  rhsBatch := []
  wf := dot_S512x2048_S640x2048_S512x640_1_1_0_0_n_n_wf

abbrev win0_0 : Pipeline.Window sig grid0 :=
  Pipeline.Window.ofSpec (Memref.whole main_v6) S512x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v7) S512x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S128x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S128x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v11) S128x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v12) S128x2048.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v13) S128x2048.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v16) S1x128.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v17) S1x128.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v18) S1x128.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v19) S1x128.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v20) S1x128.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v21) S1x128.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_v23_0) S512x128.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v23_1) S512x128.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

abbrev win1_0 : Pipeline.Window sig grid1 :=
  Pipeline.Window.ofSpec (Memref.whole main_v23_1) S512x2048.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S640x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1x640.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v24) S512x640.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S512 : Shape := ⟨1, ![512]⟩
abbrev S1x512x2048 : Shape := ⟨3, ![1, 512, 2048]⟩
abbrev S32000x1024 : Shape := ⟨2, ![32000, 1024]⟩
abbrev S6144x1024 : Shape := ⟨2, ![6144, 1024]⟩
abbrev S6144x2048 : Shape := ⟨2, ![6144, 2048]⟩
abbrev S6144 : Shape := ⟨1, ![6144]⟩
abbrev S32000x2048 : Shape := ⟨2, ![32000, 2048]⟩
abbrev S32000 : Shape := ⟨1, ![32000]⟩
abbrev S_ : Shape := ⟨0, ![]⟩
abbrev S512x1 : Shape := ⟨2, ![512, 1]⟩
abbrev S512x1024 : Shape := ⟨2, ![512, 1024]⟩
abbrev S512x2048 : Shape := ⟨2, ![512, 2048]⟩
abbrev S1024x6144 : Shape := ⟨2, ![1024, 6144]⟩
abbrev S512x6144 : Shape := ⟨2, ![512, 6144]⟩
abbrev S1x6144 : Shape := ⟨2, ![1, 6144]⟩
abbrev S2048x6144 : Shape := ⟨2, ![2048, 6144]⟩
abbrev S2048x32000 : Shape := ⟨2, ![2048, 32000]⟩
abbrev S512x32000 : Shape := ⟨2, ![512, 32000]⟩
abbrev S1x32000 : Shape := ⟨2, ![1, 32000]⟩

abbrev nBuf : Space → Nat
  | .hbm => 68
  | .vmem => 0
  | .smem => 0
  | _ => 0

abbrev bufTy : (tb : Table) → Fin (tcTables nBuf tb) → BufTy
  | .hbm, ⟨0, _⟩ => ⟨S512, .i32⟩
  | .hbm, ⟨1, _⟩ => ⟨S1x512x2048, .f32⟩
  | .hbm, ⟨2, _⟩ => ⟨S32000x1024, .f32⟩
  | .hbm, ⟨3, _⟩ => ⟨S6144x1024, .f32⟩
  | .hbm, ⟨4, _⟩ => ⟨S6144x2048, .f32⟩
  | .hbm, ⟨5, _⟩ => ⟨S6144, .f32⟩
  | .hbm, ⟨6, _⟩ => ⟨S6144, .f32⟩
  | .hbm, ⟨7, _⟩ => ⟨S32000x2048, .f32⟩
  | .hbm, ⟨8, _⟩ => ⟨S32000, .f32⟩
  | .hbm, ⟨9, _⟩ => ⟨S_, .i32⟩
  | .hbm, ⟨10, _⟩ => ⟨S512, .i32⟩
  | .hbm, ⟨11, _⟩ => ⟨S512, .i1⟩
  | .hbm, ⟨12, _⟩ => ⟨S_, .i32⟩
  | .hbm, ⟨13, _⟩ => ⟨S512, .i32⟩
  | .hbm, ⟨14, _⟩ => ⟨S512, .i32⟩
  | .hbm, ⟨15, _⟩ => ⟨S512, .i32⟩
  | .hbm, ⟨16, _⟩ => ⟨S512x1, .i32⟩
  | .hbm, ⟨17, _⟩ => ⟨S512x1024, .f32⟩
  | .hbm, ⟨18, _⟩ => ⟨S512x2048, .f32⟩
  | .hbm, ⟨19, _⟩ => ⟨S1024x6144, .f32⟩
  | .hbm, ⟨20, _⟩ => ⟨S512x6144, .f32⟩
  | .hbm, ⟨21, _⟩ => ⟨S1x6144, .f32⟩
  | .hbm, ⟨22, _⟩ => ⟨S512x6144, .f32⟩
  | .hbm, ⟨23, _⟩ => ⟨S512x6144, .f32⟩
  | .hbm, ⟨24, _⟩ => ⟨S2048x6144, .f32⟩
  | .hbm, ⟨25, _⟩ => ⟨S512x6144, .f32⟩
  | .hbm, ⟨26, _⟩ => ⟨S1x6144, .f32⟩
  | .hbm, ⟨27, _⟩ => ⟨S512x6144, .f32⟩
  | .hbm, ⟨28, _⟩ => ⟨S512x6144, .f32⟩
  | .hbm, ⟨29, _⟩ => ⟨S512x2048, .f32⟩
  | .hbm, ⟨30, _⟩ => ⟨S512x2048, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S512x2048, .f32⟩
  | .hbm, ⟨35, _⟩ => ⟨S512x2048, .f32⟩
  | .hbm, ⟨36, _⟩ => ⟨S512x2048, .f32⟩
  | .hbm, ⟨37, _⟩ => ⟨S512x2048, .f32⟩
  | .hbm, ⟨38, _⟩ => ⟨S_, .f32⟩
  | .hbm, ⟨39, _⟩ => ⟨S512x2048, .f32⟩
  | .hbm, ⟨40, _⟩ => ⟨S512x2048, .f32⟩
  | .hbm, ⟨41, _⟩ => ⟨S_, .f32⟩
  | .hbm, ⟨42, _⟩ => ⟨S512x2048, .f32⟩
  | .hbm, ⟨43, _⟩ => ⟨S512x2048, .f32⟩
  | .hbm, ⟨44, _⟩ => ⟨S512x2048, .f32⟩
  | .hbm, ⟨45, _⟩ => ⟨S512x2048, .f32⟩
  | .hbm, ⟨46, _⟩ => ⟨S512x2048, .f32⟩
  | .hbm, ⟨47, _⟩ => ⟨S_, .f32⟩
  | .hbm, ⟨48, _⟩ => ⟨S512x2048, .f32⟩
  | .hbm, ⟨49, _⟩ => ⟨S512x2048, .f32⟩
  | .hbm, ⟨50, _⟩ => ⟨S_, .f32⟩
  | .hbm, ⟨51, _⟩ => ⟨S512x2048, .f32⟩
  | .hbm, ⟨52, _⟩ => ⟨S512x2048, .f32⟩
  | .hbm, ⟨53, _⟩ => ⟨S512x2048, .f32⟩
  | .hbm, ⟨54, _⟩ => ⟨S512x2048, .f32⟩
  | .hbm, ⟨55, _⟩ => ⟨S512x2048, .f32⟩
  | .hbm, ⟨56, _⟩ => ⟨S_, .f32⟩
  | .hbm, ⟨57, _⟩ => ⟨S512x2048, .f32⟩
  | .hbm, ⟨58, _⟩ => ⟨S512x2048, .f32⟩
  | .hbm, ⟨59, _⟩ => ⟨S512x2048, .f32⟩
  | .hbm, ⟨60, _⟩ => ⟨S512x2048, .f32⟩
  | .hbm, ⟨61, _⟩ => ⟨S512x2048, .f32⟩
  | .hbm, ⟨62, _⟩ => ⟨S2048x32000, .f32⟩
  | .hbm, ⟨63, _⟩ => ⟨S512x32000, .f32⟩
  | .hbm, ⟨64, _⟩ => ⟨S1x32000, .f32⟩
  | .hbm, ⟨65, _⟩ => ⟨S512x32000, .f32⟩
  | .hbm, ⟨66, _⟩ => ⟨S512x32000, .f32⟩
  | .hbm, ⟨67, _⟩ => ⟨S1x512x2048, .f32⟩
  | _, _ => ⟨S512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst : Ref sig .tc := ⟨.hbm, 38, rfl⟩
abbrev main_v27 : Ref sig .tc := ⟨.hbm, 39, rfl⟩
abbrev main_v28 : Ref sig .tc := ⟨.hbm, 40, rfl⟩
abbrev main_cst_1 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_2 : Ref sig .tc := ⟨.hbm, 47, rfl⟩
abbrev main_v34 : Ref sig .tc := ⟨.hbm, 48, rfl⟩
abbrev main_v35 : Ref sig .tc := ⟨.hbm, 49, rfl⟩
abbrev main_cst_3 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_4 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩

abbrev nD : Nat := 1
abbrev τ : Topo := Topo.v7x

variable {F : FTy → Type} [FloatOps F]

class Facts₀ : Prop where
  bcast_S_S512 : S_.BroadcastsInDim S512 (![] : Fin 0 → Fin S512.rank)
  bcast_S512_S512x1_0 : S512.BroadcastsInDim S512x1 (![0] : Fin 1 → Fin S512x1.rank)
  shapeCasts_S1x512x2048_S512x2048 : S1x512x2048.ShapeCasts S512x2048
  transposes_S6144x1024_S1024x6144_1_0 : S6144x1024.Transposes [1, 0] S1024x6144
  bcast_S6144_S1x6144_1 : S6144.BroadcastsInDim S1x6144 (![1] : Fin 1 → Fin S1x6144.rank)
  bcast_S1x6144_S512x6144_0_1 : S1x6144.BroadcastsInDim S512x6144 (![0, 1] : Fin 2 → Fin S512x6144.rank)
  transposes_S6144x2048_S2048x6144_1_0 : S6144x2048.Transposes [1, 0] S2048x6144
  slices_S512x6144_S512x2048_0_0 : S512x6144.Slices ![0, 0] S512x2048
  slices_S512x6144_S512x2048_0_2048 : S512x6144.Slices ![0, 2048] S512x2048
  slices_S512x6144_S512x2048_0_4096 : S512x6144.Slices ![0, 4096] S512x2048
  bcast_S_S512x2048 : S_.BroadcastsInDim S512x2048 (![] : Fin 0 → Fin S512x2048.rank)
  transposes_S32000x2048_S2048x32000_1_0 : S32000x2048.Transposes [1, 0] S2048x32000
  bcast_S32000_S1x32000_1 : S32000.BroadcastsInDim S1x32000 (![1] : Fin 1 → Fin S1x32000.rank)
  bcast_S1x32000_S512x32000_0_1 : S1x32000.BroadcastsInDim S512x32000 (![0, 1] : Fin 2 → Fin S512x32000.rank)
  bcast_S512x2048_S1x512x2048_1_2 : S512x2048.BroadcastsInDim S1x512x2048 (![1, 2] : Fin 2 → Fin S1x512x2048.rank)
  gather_S32000x1024_S512x1_S512x1024_1_0_n_n_0_1_11024_wf : GatherDims.WF S32000x1024 S512x1 S512x1024 [1] [0] [] [0] [] 1 ![1, 1024]
  dot_S512x1024_S1024x6144_S512x6144_1_0_0_1_n_n_wf : DotDims.WF S512x1024 S1024x6144 S512x6144 [1] [0] [0] [1] [] []
  dot_S512x2048_S2048x6144_S512x6144_1_0_0_1_n_n_wf : DotDims.WF S512x2048 S2048x6144 S512x6144 [1] [0] [0] [1] [] []
  dot_S512x2048_S2048x32000_S512x32000_1_0_0_1_n_n_wf : DotDims.WF S512x2048 S2048x32000 S512x32000 [1] [0] [0] [1] [] []

variable [Facts₀]

def gather_S32000x1024_S512x1_S512x1024_1_0_n_n_0_1_11024 : GatherDims S32000x1024 S512x1 S512x1024 where
  offsetDims := [1]
  collapsedSliceDims := [0]
  operandBatchingDims := []
  startIndicesBatchingDims := []
  startIndexMap := [0]
  indexVectorDim := 1
  sliceSizes := ![1, 1024]
  wf := gather_S32000x1024_S512x1_S512x1024_1_0_n_n_0_1_11024_wf
def dot_S512x1024_S1024x6144_S512x6144_1_0_0_1_n_n : DotDims S512x1024 S1024x6144 S512x6144 where
  lhsContracting := [1]
  rhsContracting := [0]
  lhsNonContracting := [0]
  rhsNonContracting := [1]
  lhsBatch := []
  rhsBatch := []
  wf := dot_S512x1024_S1024x6144_S512x6144_1_0_0_1_n_n_wf
def dot_S512x2048_S2048x6144_S512x6144_1_0_0_1_n_n : DotDims S512x2048 S2048x6144 S512x6144 where
  lhsContracting := [1]
  rhsContracting := [0]
  lhsNonContracting := [0]
  rhsNonContracting := [1]
  lhsBatch := []
  rhsBatch := []
  wf := dot_S512x2048_S2048x6144_S512x6144_1_0_0_1_n_n_wf
def dot_S512x2048_S2048x32000_S512x32000_1_0_0_1_n_n : DotDims S512x2048 S2048x32000 S512x32000 where
  lhsContracting := [1]
  rhsContracting := [0]
  lhsNonContracting := [0]
  rhsNonContracting := [1]
  lhsBatch := []
  rhsBatch := []
  wf := dot_S512x2048_S2048x32000_S512x32000_1_0_0_1_n_n_wf

class Facts : Prop extends Facts₀ where

variable [Facts]
-- ==== Proof.KernelRun.lean ====
/-
  The idealized kernel's run with its two results kept.  @main is four segments: a stretch of host operations (the gather of
  the embedding rows, the gate slices of the weights and biases), the GRU-step region, the logits region, and one host
  operation (the new hidden state given its leading unit axis).  Every weakly fair execution ends with each unscoped buffer
  at the last boundary's contents: the fold of the segments from the launch memory.  The frame claim reads the arguments
  off that fold; here the two result buffers are read off it as well, so that the value of each can be computed
  from the fold, one boundary at a time.
-/
import proofs.«121000_j3753801417244_2_alg».proof.Proof.Gen.KernelIdeal.Frame

set_option maxRecDepth 16384

noncomputable section

namespace Cert.KernelIdeal.GruRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the logits buffer and the new hidden state's
    buffer at the last boundary's contents, and the argument arrays as launched. -/
theorem run_boundary : θ_run defs (onTc (τ := τ) (main (F := F))) ⟨m, fun _ => 0, ρ⟩ (fun r => ∀ c : Dev nD,
      r.2.mem ((c.tc : Thread nD τ).loc main_v24) = W4 m ρ c (Proc.devRef .tc main_v24)
      ∧ r.2.mem ((c.tc : Thread nD τ).loc main_v25) = W4 m ρ c (Proc.devRef .tc main_v25)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v24 (by decide)),
       h c _ (mem_uc main_v25 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.GruRun

end
-- ==== Proof.GruStepBody.lean ====
/-
  What one grid point of the GRU-step region leaves in its two output blocks.  The region's body, at the point with
  hidden-column block `j`, loads the whole input batch `x` (512 × 1024) and hidden state `h` (512 × 2048), the six
  128-row gate blocks of the weights, the six 128-lane bias blocks, and the 128 columns `128 j …` of `h` once more; it stores
  one 512 × 128 block of the new hidden state, in f32 and again in bf16.  The run of the body found, for each output, ONE
  store covering the block; read back, the block is the body's arithmetic (the payload) of the loaded blocks.
-/
import proofs.«121000_j3753801417244_2_alg».proof.Proof.Gen.KernelIdeal.Frame
import Idealize.ShloMosaic.Lib.Pipeline.Value
import Idealize.ShloMosaic.Lib.Tactic

set_option maxRecDepth 16384

noncomputable section

namespace Cert.KernelIdeal.GruStep

open Cert.KernelIdeal Cert.KernelIdeal.Gen
open Idealize.ShloMosaic Idealize.ShloMosaic.TcCoe Idealize.SL.Sem
open Idealize.ShloMosaic.Pipeline (Dat)

variable {F : FTy → Type} [FloatOps F]

theorem hz : (![0, 0] : Fin 2 → Nat) = fun _ => 0 := funext fun a => by fin_cases a <;> rfl

/-- The f32 output block after the body: the new hidden state's arithmetic of the loaded blocks, the last operand the
    128 columns of `h` at the point's column offset. -/
theorem block_f32 (c : Dev nD) (i : grid0.Coords) (a1 : Memref sig .tc .vmem S512x1024 .f32) (h1 : a1.IsWhole) (a2 : Memref sig .tc .vmem S512x2048 .f32) (h2 : a2.IsWhole) (a3 : Memref sig .tc .vmem S128x1024 .f32) (h3 : a3.IsWhole) (a4 : Memref sig .tc .vmem S128x1024 .f32) (h4 : a4.IsWhole) (a5 : Memref sig .tc .vmem S128x1024 .f32) (h5 : a5.IsWhole) (a6 : Memref sig .tc .vmem S128x2048 .f32) (h6 : a6.IsWhole) (a7 : Memref sig .tc .vmem S128x2048 .f32) (h7 : a7.IsWhole) (a8 : Memref sig .tc .vmem S128x2048 .f32) (h8 : a8.IsWhole) (a9 : Memref sig .tc .vmem S1x128 .f32) (h9 : a9.IsWhole) (a10 : Memref sig .tc .vmem S1x128 .f32) (h10 : a10.IsWhole) (a11 : Memref sig .tc .vmem S1x128 .f32) (h11 : a11.IsWhole) (a12 : Memref sig .tc .vmem S1x128 .f32) (h12 : a12.IsWhole) (a13 : Memref sig .tc .vmem S1x128 .f32) (h13 : a13.IsWhole) (a14 : Memref sig .tc .vmem S1x128 .f32) (h14 : a14.IsWhole) (a15 : Memref sig .tc .vmem S512x128 .f32) (h15 : a15.IsWhole) (a16 : Memref sig .tc .vmem S512x128 .bf16) (h16 : a16.IsWhole)
    (x0 : Vec F S512x1024 .f32) (x1 : Vec F S512x2048 .f32) (x2 : Vec F S128x1024 .f32) (x3 : Vec F S128x1024 .f32) (x4 : Vec F S128x1024 .f32) (x5 : Vec F S128x2048 .f32) (x6 : Vec F S128x2048 .f32) (x7 : Vec F S128x2048 .f32) (x8 : Vec F S1x128 .f32) (x9 : Vec F S1x128 .f32) (x10 : Vec F S1x128 .f32) (x11 : Vec F S1x128 .f32) (x12 : Vec F S1x128 .f32) (x13 : Vec F S1x128 .f32) :
    out0_A_14 c i a1 h1 a2 h2 a3 h3 a4 h4 a5 h5 a6 h6 a7 h7 a8 h8 a9 h9 a10 h10 a11 h11 a12 h12 a13 h13 a14 h14 a15 h15 a16 h16 x0 x1 x2 x3 x4 x5 x6 x7 x8 x9 x10 x11 x12 x13
      = k0_pay1 (k0_pay3 x0) (k0_pay4 x1) (k0_pay5 x4) (k0_pay6 x5) (k0_pay7 x6) (k0_pay8 x7) (k0_pay9 x0 x2 x8) (k0_pay10 x0 x3 x9) x10 x11 x12 x13 (View.ld x1 (Rect.unit (s := S512x2048) (k0_off1 i) S512x128.size (k0_off1_inb i))) := by
  unfold out0_A_14
  rw [View.read_writes_eq_canon _ _ _ (cover0_A_14 c i a1 h1 a2 h2 a3 h3 a4 h4 a5 h5 a6 h6 a7 h7 a8 h8 a9 h9 a10 h10 a11 h11 a12 h12 a13 h13 a14 h14 a15 h15 a16 h16 x0 x1 x2 x3 x4 x5 x6 x7 x8 x9 x10 x11 x12 x13)]
  unfold kernelRun0_A
  dsimp only
  sl_unfold_words
  rw [View.canon_unit_zero hz]
  simp only [View.readAt_eq_ld, h1.read_unread, h2.read_unread, h3.read_unread, h4.read_unread, h5.read_unread, h6.read_unread,
    h7.read_unread, h8.read_unread, h9.read_unread, h10.read_unread, h11.read_unread, h12.read_unread, h13.read_unread, h14.read_unread,
    View.ld_unit_zero (S := S512x1024) hz, View.ld_unit_zero (S := S512x2048) hz, View.ld_unit_zero (S := S128x1024) hz,
    View.ld_unit_zero (S := S128x2048) hz, View.ld_unit_zero (S := S1x128) hz]

/-- The bf16 output block after the body: the same arithmetic, narrowed. -/
theorem block_bf16 (c : Dev nD) (i : grid0.Coords) (a1 : Memref sig .tc .vmem S512x1024 .f32) (h1 : a1.IsWhole) (a2 : Memref sig .tc .vmem S512x2048 .f32) (h2 : a2.IsWhole) (a3 : Memref sig .tc .vmem S128x1024 .f32) (h3 : a3.IsWhole) (a4 : Memref sig .tc .vmem S128x1024 .f32) (h4 : a4.IsWhole) (a5 : Memref sig .tc .vmem S128x1024 .f32) (h5 : a5.IsWhole) (a6 : Memref sig .tc .vmem S128x2048 .f32) (h6 : a6.IsWhole) (a7 : Memref sig .tc .vmem S128x2048 .f32) (h7 : a7.IsWhole) (a8 : Memref sig .tc .vmem S128x2048 .f32) (h8 : a8.IsWhole) (a9 : Memref sig .tc .vmem S1x128 .f32) (h9 : a9.IsWhole) (a10 : Memref sig .tc .vmem S1x128 .f32) (h10 : a10.IsWhole) (a11 : Memref sig .tc .vmem S1x128 .f32) (h11 : a11.IsWhole) (a12 : Memref sig .tc .vmem S1x128 .f32) (h12 : a12.IsWhole) (a13 : Memref sig .tc .vmem S1x128 .f32) (h13 : a13.IsWhole) (a14 : Memref sig .tc .vmem S1x128 .f32) (h14 : a14.IsWhole) (a15 : Memref sig .tc .vmem S512x128 .f32) (h15 : a15.IsWhole) (a16 : Memref sig .tc .vmem S512x128 .bf16) (h16 : a16.IsWhole)
    (x0 : Vec F S512x1024 .f32) (x1 : Vec F S512x2048 .f32) (x2 : Vec F S128x1024 .f32) (x3 : Vec F S128x1024 .f32) (x4 : Vec F S128x1024 .f32) (x5 : Vec F S128x2048 .f32) (x6 : Vec F S128x2048 .f32) (x7 : Vec F S128x2048 .f32) (x8 : Vec F S1x128 .f32) (x9 : Vec F S1x128 .f32) (x10 : Vec F S1x128 .f32) (x11 : Vec F S1x128 .f32) (x12 : Vec F S1x128 .f32) (x13 : Vec F S1x128 .f32) :
    out0_A_15 c i a1 h1 a2 h2 a3 h3 a4 h4 a5 h5 a6 h6 a7 h7 a8 h8 a9 h9 a10 h10 a11 h11 a12 h12 a13 h13 a14 h14 a15 h15 a16 h16 x0 x1 x2 x3 x4 x5 x6 x7 x8 x9 x10 x11 x12 x13
      = k0_pay2 (k0_pay3 x0) (k0_pay4 x1) (k0_pay5 x4) (k0_pay6 x5) (k0_pay7 x6) (k0_pay8 x7) (k0_pay9 x0 x2 x8) (k0_pay10 x0 x3 x9) x10 x11 x12 x13 (View.ld x1 (Rect.unit (s := S512x2048) (k0_off1 i) S512x128.size (k0_off1_inb i))) := by
  unfold out0_A_15
  rw [View.read_writes_eq_canon _ _ _ (cover0_A_15 c i a1 h1 a2 h2 a3 h3 a4 h4 a5 h5 a6 h6 a7 h7 a8 h8 a9 h9 a10 h10 a11 h11 a12 h12 a13 h13 a14 h14 a15 h15 a16 h16 x0 x1 x2 x3 x4 x5 x6 x7 x8 x9 x10 x11 x12 x13)]
  unfold kernelRun0_A
  dsimp only
  sl_unfold_words
  rw [View.canon_unit_zero hz]
  simp only [View.readAt_eq_ld, h1.read_unread, h2.read_unread, h3.read_unread, h4.read_unread, h5.read_unread, h6.read_unread,
    h7.read_unread, h8.read_unread, h9.read_unread, h10.read_unread, h11.read_unread, h12.read_unread, h13.read_unread, h14.read_unread,
    View.ld_unit_zero (S := S512x1024) hz, View.ld_unit_zero (S := S512x2048) hz, View.ld_unit_zero (S := S128x1024) hz,
    View.ld_unit_zero (S := S128x2048) hz, View.ld_unit_zero (S := S1x128) hz]

end Cert.KernelIdeal.GruStep

end
-- ==== Proof.GruSpec.lean ====
/-
  The GRU step and the logits projection as functions of arrays, index by index, over the extended reals.

  A gate's pre-activation at batch row `p` and hidden column `j` is the inner product of an input row with the gate's weight
  row, plus the gate's bias.  With `r`, `z` the logistic of the summed reset and update pre-activations and `n` the
  hyperbolic tangent of the candidate's, the new hidden value is `(1 - z) · n + z · h`.  The three gates' rows sit one after
  the other in the fused weight matrices: gate `g`, column `j` is row `2048 g + j`.  A logit is the inner product of a row of
  the new hidden state with a row of the projection matrix, plus its bias.
-/
import Idealize.ShloMosaic.PureOps.Ideal
import Idealize.ShloMosaic.Lib.ValueIdx
import Idealize.ShloMosaic.Lib.IdealHost

noncomputable section

namespace Cert.GruSpec

open Idealize.ShloMosaic Idealize.ShloMosaic.ValueIdx

/-- A matrix of extended reals with literal extents. -/
abbrev Mat (a b : Nat) : Type := (⟨2, ![a, b]⟩ : Shape).Idx → EReal
/-- A vector of extended reals with a literal extent. -/
abbrev Row (a : Nat) : Type := (⟨1, ![a]⟩ : Shape).Idx → EReal

/-- An inner product plus a bias. -/
def pre {K : Nat} (x w : Fin K → EReal) (b : EReal) : EReal := (∑ k : Fin K, x k * w k) + b

/-- The GRU cell at one position: the six pre-activations (input side, then hidden side; reset, update, candidate) and the
    old hidden value. -/
def cell (gir giz gin ghr ghz ghn hold : EReal) : EReal :=
  (1 - Ideal.logistic (giz + ghz)) * Ideal.tanh (gin + Ideal.logistic (gir + ghr) * ghn) + Ideal.logistic (giz + ghz) * hold

/-- Row of gate `g`'s column `j` in a fused gate matrix. -/
def gate (g : Fin 3) (j : Fin 2048) : Fin 6144 := ⟨g.val * 2048 + j.val, by have := g.isLt; have := j.isLt; omega⟩

/-- Input-side pre-activation of gate `g` at `(p, j)`. -/
def giAt (X : Mat 512 1024) (Wi : Mat 6144 1024) (bi : Row 6144) (g : Fin 3) (p : Fin 512) (j : Fin 2048) : EReal :=
  pre (fun k => X (ix2 p k)) (fun k => Wi (ix2 (gate g j) k)) (bi (ix1 (gate g j)))

/-- Hidden-side pre-activation of gate `g` at `(p, j)`. -/
def ghAt (H : Mat 512 2048) (Wh : Mat 6144 2048) (bh : Row 6144) (g : Fin 3) (p : Fin 512) (j : Fin 2048) : EReal :=
  pre (fun k => H (ix2 p k)) (fun k => Wh (ix2 (gate g j) k)) (bh (ix1 (gate g j)))

/-- The new hidden value at `(p, j)`. -/
def hiddenAt (X : Mat 512 1024) (H : Mat 512 2048) (Wi : Mat 6144 1024) (Wh : Mat 6144 2048) (bi bh : Row 6144)
    (p : Fin 512) (j : Fin 2048) : EReal :=
  cell (giAt X Wi bi 0 p j) (giAt X Wi bi 1 p j) (giAt X Wi bi 2 p j)
    (ghAt H Wh bh 0 p j) (ghAt H Wh bh 1 p j) (ghAt H Wh bh 2 p j) (H (ix2 p j))

/-- The new hidden state. -/
def hidden (X : Mat 512 1024) (H : Mat 512 2048) (Wi : Mat 6144 1024) (Wh : Mat 6144 2048) (bi bh : Row 6144) : Mat 512 2048 :=
  fun i => hiddenAt X H Wi Wh bi bh (i 0) (i 1)

/-- A logit at `(p, v)`. -/
def logitAt (Hn : Mat 512 2048) (fW : Mat 32000 2048) (fb : Row 32000) (p : Fin 512) (v : Fin 32000) : EReal :=
  pre (fun k => Hn (ix2 p k)) (fun k => fW (ix2 v k)) (fb (ix1 v))

/-- The logits. -/
def logits (Hn : Mat 512 2048) (fW : Mat 32000 2048) (fb : Row 32000) : Mat 512 32000 :=
  fun i => logitAt Hn fW fb (i 0) (i 1)

end Cert.GruSpec

end
-- ==== Proof.GruStepCell.lean ====
/-
  The GRU-step body's arithmetic at one position of its 512 × 128 output block, over the extended reals.  Each of the six
  products into a zero accumulator is, at `(p, q)`, the inner product of row `p` of the batch operand with row `q` of the
  gate's 128-row weight block (narrowing to bf16 is the identity here); each 1 × 128 bias block is broadcast down the rows.
  So the block's value at `(p, q)` is the GRU cell of the six pre-activations and the loaded column block of `h` at `(p, q)`.
-/
import proofs.«121000_j3753801417244_2_alg».proof.Proof.Gen.KernelIdeal.Skeleton
import proofs.«121000_j3753801417244_2_alg».proof.Proof.GruSpec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.GruStep

open Cert.KernelIdeal Cert.KernelIdeal.Gen Cert.GruSpec
open Idealize.ShloMosaic Idealize.ShloMosaic.ValueIdx

theorem mm_x_l0 (i : S512x128.Idx) (q : dot_S512x1024_S128x1024_S512x128_1_1_0_0_n_n.contr.Idx) : (dot_S512x1024_S128x1024_S512x128_1_1_0_0_n_n.lhsIdx i q 0).val = (i 0).val := by
  unfold DotDims.lhsIdx
  rw [dif_neg (show ¬(0 : Fin S512x1024.rank) ∈ dot_S512x1024_S128x1024_S512x128_1_1_0_0_n_n.lhsBatch by decide), dif_pos (show (0 : Fin S512x1024.rank) ∈ dot_S512x1024_S128x1024_S512x128_1_1_0_0_n_n.lhsNonContracting by decide)]
  rfl
theorem mm_x_r0 (i : S512x128.Idx) (q : dot_S512x1024_S128x1024_S512x128_1_1_0_0_n_n.contr.Idx) : (dot_S512x1024_S128x1024_S512x128_1_1_0_0_n_n.rhsIdx i q 0).val = (i 1).val := by
  unfold DotDims.rhsIdx
  rw [dif_neg (show ¬(0 : Fin S128x1024.rank) ∈ dot_S512x1024_S128x1024_S512x128_1_1_0_0_n_n.rhsBatch by decide), dif_pos (show (0 : Fin S128x1024.rank) ∈ dot_S512x1024_S128x1024_S512x128_1_1_0_0_n_n.rhsNonContracting by decide)]
  rfl
/-- A product into the zero accumulator, both operands contracted along their second axis: at `(p, q)` the inner product of
    row `p` of the left operand with row `q` of the right. -/
theorem mm_x {φ₁ φ₂ : FTy} (l : FVec Ideal S512x1024 φ₁) (r : FVec Ideal S128x1024 φ₂) (p : Fin 512) (q : Fin 128) :
    matmul dot_S512x1024_S128x1024_S512x128_1_1_0_0_n_n none l r (constant (F := Ideal) S512x128 .f32 0x00000000#32) (ix2 p q)
      = ∑ k : Fin 1024, l (ix2 p k) * r (ix2 q k) := by
  simp only [matmul]
  rw [Ideal.matmul_constant_zero_apply, ← Equiv.sum_comp (ValueIdx.contrEquiv1 dot_S512x1024_S128x1024_S512x128_1_1_0_0_n_n 1024 rfl rfl).symm]
  refine Finset.sum_congr rfl fun k _ => ?_
  have hk := ValueIdx.contrEquiv1_symm_val dot_S512x1024_S128x1024_S512x128_1_1_0_0_n_n 1024 rfl rfl k
  have el : dot_S512x1024_S128x1024_S512x128_1_1_0_0_n_n.lhsIdx (ix2 p q) ((ValueIdx.contrEquiv1 dot_S512x1024_S128x1024_S512x128_1_1_0_0_n_n 1024 rfl rfl).symm k) = ix2 p k := funext fun a => Fin.ext (by
    match a with
    | ⟨0, _⟩ => exact mm_x_l0 _ _
    | ⟨1, _⟩ => exact (dot_S512x1024_S128x1024_S512x128_1_1_0_0_n_n.lhsIdx_val_of_single rfl _ _).trans hk)
  have er : dot_S512x1024_S128x1024_S512x128_1_1_0_0_n_n.rhsIdx (ix2 p q) ((ValueIdx.contrEquiv1 dot_S512x1024_S128x1024_S512x128_1_1_0_0_n_n 1024 rfl rfl).symm k) = ix2 q k := funext fun a => Fin.ext (by
    match a with
    | ⟨0, _⟩ => exact mm_x_r0 _ _
    | ⟨1, _⟩ => exact (dot_S512x1024_S128x1024_S512x128_1_1_0_0_n_n.rhsIdx_val_of_single rfl _ _).trans hk)
  rw [el, er]

theorem mm_h_l0 (i : S512x128.Idx) (q : dot_S512x2048_S128x2048_S512x128_1_1_0_0_n_n.contr.Idx) : (dot_S512x2048_S128x2048_S512x128_1_1_0_0_n_n.lhsIdx i q 0).val = (i 0).val := by
  unfold DotDims.lhsIdx
  rw [dif_neg (show ¬(0 : Fin S512x2048.rank) ∈ dot_S512x2048_S128x2048_S512x128_1_1_0_0_n_n.lhsBatch by decide), dif_pos (show (0 : Fin S512x2048.rank) ∈ dot_S512x2048_S128x2048_S512x128_1_1_0_0_n_n.lhsNonContracting by decide)]
  rfl
theorem mm_h_r0 (i : S512x128.Idx) (q : dot_S512x2048_S128x2048_S512x128_1_1_0_0_n_n.contr.Idx) : (dot_S512x2048_S128x2048_S512x128_1_1_0_0_n_n.rhsIdx i q 0).val = (i 1).val := by
  unfold DotDims.rhsIdx
  rw [dif_neg (show ¬(0 : Fin S128x2048.rank) ∈ dot_S512x2048_S128x2048_S512x128_1_1_0_0_n_n.rhsBatch by decide), dif_pos (show (0 : Fin S128x2048.rank) ∈ dot_S512x2048_S128x2048_S512x128_1_1_0_0_n_n.rhsNonContracting by decide)]
  rfl
/-- A product into the zero accumulator, both operands contracted along their second axis: at `(p, q)` the inner product of
    row `p` of the left operand with row `q` of the right. -/
theorem mm_h {φ₁ φ₂ : FTy} (l : FVec Ideal S512x2048 φ₁) (r : FVec Ideal S128x2048 φ₂) (p : Fin 512) (q : Fin 128) :
    matmul dot_S512x2048_S128x2048_S512x128_1_1_0_0_n_n none l r (constant (F := Ideal) S512x128 .f32 0x00000000#32) (ix2 p q)
      = ∑ k : Fin 2048, l (ix2 p k) * r (ix2 q k) := by
  simp only [matmul]
  rw [Ideal.matmul_constant_zero_apply, ← Equiv.sum_comp (ValueIdx.contrEquiv1 dot_S512x2048_S128x2048_S512x128_1_1_0_0_n_n 2048 rfl rfl).symm]
  refine Finset.sum_congr rfl fun k _ => ?_
  have hk := ValueIdx.contrEquiv1_symm_val dot_S512x2048_S128x2048_S512x128_1_1_0_0_n_n 2048 rfl rfl k
  have el : dot_S512x2048_S128x2048_S512x128_1_1_0_0_n_n.lhsIdx (ix2 p q) ((ValueIdx.contrEquiv1 dot_S512x2048_S128x2048_S512x128_1_1_0_0_n_n 2048 rfl rfl).symm k) = ix2 p k := funext fun a => Fin.ext (by
    match a with
    | ⟨0, _⟩ => exact mm_h_l0 _ _
    | ⟨1, _⟩ => exact (dot_S512x2048_S128x2048_S512x128_1_1_0_0_n_n.lhsIdx_val_of_single rfl _ _).trans hk)
  have er : dot_S512x2048_S128x2048_S512x128_1_1_0_0_n_n.rhsIdx (ix2 p q) ((ValueIdx.contrEquiv1 dot_S512x2048_S128x2048_S512x128_1_1_0_0_n_n 2048 rfl rfl).symm k) = ix2 q k := funext fun a => Fin.ext (by
    match a with
    | ⟨0, _⟩ => exact mm_h_r0 _ _
    | ⟨1, _⟩ => exact (dot_S512x2048_S128x2048_S512x128_1_1_0_0_n_n.rhsIdx_val_of_single rfl _ _).trans hk)
  rw [el, er]

/-- The f32 block's value at `(p, q)`: the GRU cell of the point's six pre-activations. -/
theorem pay_f32_at (X : Vec Ideal S512x1024 .f32) (H : Vec Ideal S512x2048 .f32)
    (wr wz wn : Vec Ideal S128x1024 .f32) (ur uz un : Vec Ideal S128x2048 .f32)
    (br bz bn cr cz cn : Vec Ideal S1x128 .f32) (hc : Vec Ideal S512x128 .f32) (p : Fin 512) (q : Fin 128) :
    k0_pay1 (k0_pay3 X) (k0_pay4 H) (k0_pay5 wn) (k0_pay6 ur) (k0_pay7 uz) (k0_pay8 un) (k0_pay9 X wr br) (k0_pay10 X wz bz)
        bn cr cz cn hc (ix2 p q)
      = cell (pre (fun k => X (ix2 p k)) (fun k => wr (ix2 q k)) (br (ix2 (0 : Fin 1) q)))
          (pre (fun k => X (ix2 p k)) (fun k => wz (ix2 q k)) (bz (ix2 (0 : Fin 1) q)))
          (pre (fun k => X (ix2 p k)) (fun k => wn (ix2 q k)) (bn (ix2 (0 : Fin 1) q)))
          (pre (fun k => H (ix2 p k)) (fun k => ur (ix2 q k)) (cr (ix2 (0 : Fin 1) q)))
          (pre (fun k => H (ix2 p k)) (fun k => uz (ix2 q k)) (cz (ix2 (0 : Fin 1) q)))
          (pre (fun k => H (ix2 p k)) (fun k => un (ix2 q k)) (cn (ix2 (0 : Fin 1) q)))
          (hc (ix2 p q)) := by
  unfold k0_pay1 k0_pay9 k0_pay10 k0_pay3 k0_pay4 k0_pay5 k0_pay6 k0_pay7 k0_pay8
  simp only [addf_apply, mulf_apply, subf_apply, logistic, tanh, broadcast_apply, mm_x, mm_h, truncf_apply, shapeCast_self,
    broadcastTo_1b_ab_apply, Ideal.logistic_def, Ideal.tanh_def, Scalar.ofBits, Ideal.ofBits_def, Ideal.ofBits_one_f32]
  rfl

end Cert.KernelIdeal.GruStep

end
-- ==== Proof.GruStepArray.lean ====
/-
  The GRU-step region's two result arrays after its sixteen grid points, as ONE function of the arrays the region finds on
  entry.  Point `t` stages the whole batch operands, rows `128 t …` of each of the six gate matrices, lanes `128 t …` of each
  of the six bias rows, and writes back columns `128 t …` of each result.  So what point `t` writes at `(p, q)` of its block is
  the GRU cell at `(p, 128 t + q)` of the entry arrays — the restriction to the block of one whole-array function — and the
  sixteen column blocks tile the 512 × 2048 results.
-/
import proofs.«121000_j3753801417244_2_alg».proof.Proof.GruStepBody
import proofs.«121000_j3753801417244_2_alg».proof.Proof.GruStepCell

set_option maxRecDepth 16384

noncomputable section

namespace Cert.KernelIdeal.GruStep

open Cert.KernelIdeal Cert.KernelIdeal.Gen Cert.GruSpec
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The printed index maps over the sixteen points: the batch operands' blocks never move; a gate matrix's block is row block
    `t`; a bias row's and a result's block is column block `t`; the body's own column offset into `h` is `128 t`. -/
theorem idx_facts : ∀ t : Fin cfg0.N, win0_0.index t (0 : Fin 2) = 0
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0
    ∧ win0_3.index t (0 : Fin 2) = t.val
    ∧ win0_3.index t (1 : Fin 2) = 0
    ∧ win0_4.index t (0 : Fin 2) = t.val
    ∧ win0_4.index t (1 : Fin 2) = 0
    ∧ win0_5.index t (0 : Fin 2) = t.val
    ∧ win0_5.index t (1 : Fin 2) = 0
    ∧ win0_6.index t (0 : Fin 2) = t.val
    ∧ win0_6.index t (1 : Fin 2) = 0
    ∧ win0_7.index t (0 : Fin 2) = t.val
    ∧ win0_7.index t (1 : Fin 2) = 0
    ∧ win0_8.index t (0 : Fin 2) = 0
    ∧ win0_8.index t (1 : Fin 2) = t.val
    ∧ win0_9.index t (0 : Fin 2) = 0
    ∧ win0_9.index t (1 : Fin 2) = t.val
    ∧ win0_10.index t (0 : Fin 2) = 0
    ∧ win0_10.index t (1 : Fin 2) = t.val
    ∧ win0_11.index t (0 : Fin 2) = 0
    ∧ win0_11.index t (1 : Fin 2) = t.val
    ∧ win0_12.index t (0 : Fin 2) = 0
    ∧ win0_12.index t (1 : Fin 2) = t.val
    ∧ win0_13.index t (0 : Fin 2) = 0
    ∧ win0_13.index t (1 : Fin 2) = t.val
    ∧ win0_14.index t (0 : Fin 2) = 0
    ∧ win0_14.index t (1 : Fin 2) = t.val
    ∧ win0_15.index t (0 : Fin 2) = 0
    ∧ win0_15.index t (1 : Fin 2) = t.val
    ∧ k0_off1 (grid0.coords t) = ![0, 128 * t.val] :=
  (by decide +kernel : ∀ t : Fin grid0.N, _)

/-- Window 0 stages the whole of its array at every point. -/
theorem blk0_at (c : Dev nD) (t : Fin cfg0.N) (p : Fin 512) (k : Fin 1024) :
    iblk0 V c 0 t (ix2 p k) = V c main_v6 (ix2 p k) := by
  obtain ⟨f0_0, f0_1, f1_0, f1_1, f2_0, f2_1, f3_0, f3_1, f4_0, f4_1, f5_0, f5_1, f6_0, f6_1, f7_0, f7_1, f8_0, f8_1, f9_0, f9_1, f10_0, f10_1, f11_0, f11_1, f12_0, f12_1, f13_0, f13_1, f14_0, f14_1, f15_0, f15_1, foff⟩ := idx_facts t
  unfold iblk0; rw [View.read_apply]
  show V c main_v6 (((cfg0.win 0).blk t).view.emb (ix2 p k)) = V c main_v6 (ix2 p k)
  refine congrArg _ (funext fun a => Fin.ext ?_)
  match a with
  | ⟨0, _⟩ => show win0_0.index t (0 : Fin 2) * 512 + 1 * p.val = p.val; rw [f0_0]; omega
  | ⟨1, _⟩ => show win0_0.index t (1 : Fin 2) * 1024 + 1 * k.val = k.val; rw [f0_1]; omega

/-- Window 1 stages the whole of its array at every point. -/
theorem blk1_at (c : Dev nD) (t : Fin cfg0.N) (p : Fin 512) (k : Fin 2048) :
    iblk0 V c 1 t (ix2 p k) = V c main_v7 (ix2 p k) := by
  obtain ⟨f0_0, f0_1, f1_0, f1_1, f2_0, f2_1, f3_0, f3_1, f4_0, f4_1, f5_0, f5_1, f6_0, f6_1, f7_0, f7_1, f8_0, f8_1, f9_0, f9_1, f10_0, f10_1, f11_0, f11_1, f12_0, f12_1, f13_0, f13_1, f14_0, f14_1, f15_0, f15_1, foff⟩ := idx_facts t
  unfold iblk0; rw [View.read_apply]
  show V c main_v7 (((cfg0.win 1).blk t).view.emb (ix2 p k)) = V c main_v7 (ix2 p k)
  refine congrArg _ (funext fun a => Fin.ext ?_)
  match a with
  | ⟨0, _⟩ => show win0_1.index t (0 : Fin 2) * 512 + 1 * p.val = p.val; rw [f1_0]; omega
  | ⟨1, _⟩ => show win0_1.index t (1 : Fin 2) * 2048 + 1 * k.val = k.val; rw [f1_1]; omega

/-- Window 2 stages, at point `t`, rows `128 t …` of its gate matrix. -/
theorem blk2_at (c : Dev nD) (t : Fin cfg0.N) (q : Fin 128) (k : Fin 1024) (J : Fin 2048) (hJ : J.val = t.val * 128 + q.val) :
    iblk0 V c 2 t (ix2 q k) = V c main_v8 (ix2 J k) := by
  obtain ⟨f0_0, f0_1, f1_0, f1_1, f2_0, f2_1, f3_0, f3_1, f4_0, f4_1, f5_0, f5_1, f6_0, f6_1, f7_0, f7_1, f8_0, f8_1, f9_0, f9_1, f10_0, f10_1, f11_0, f11_1, f12_0, f12_1, f13_0, f13_1, f14_0, f14_1, f15_0, f15_1, foff⟩ := idx_facts t
  unfold iblk0; rw [View.read_apply]
  show V c main_v8 (((cfg0.win 2).blk t).view.emb (ix2 q k)) = V c main_v8 (ix2 J k)
  refine congrArg _ (funext fun a => Fin.ext ?_)
  match a with
  | ⟨0, _⟩ => show win0_2.index t (0 : Fin 2) * 128 + 1 * q.val = J.val; rw [f2_0, hJ]; omega
  | ⟨1, _⟩ => show win0_2.index t (1 : Fin 2) * 1024 + 1 * k.val = k.val; rw [f2_1]; omega

/-- Window 3 stages, at point `t`, rows `128 t …` of its gate matrix. -/
theorem blk3_at (c : Dev nD) (t : Fin cfg0.N) (q : Fin 128) (k : Fin 1024) (J : Fin 2048) (hJ : J.val = t.val * 128 + q.val) :
    iblk0 V c 3 t (ix2 q k) = V c main_v9 (ix2 J k) := by
  obtain ⟨f0_0, f0_1, f1_0, f1_1, f2_0, f2_1, f3_0, f3_1, f4_0, f4_1, f5_0, f5_1, f6_0, f6_1, f7_0, f7_1, f8_0, f8_1, f9_0, f9_1, f10_0, f10_1, f11_0, f11_1, f12_0, f12_1, f13_0, f13_1, f14_0, f14_1, f15_0, f15_1, foff⟩ := idx_facts t
  unfold iblk0; rw [View.read_apply]
  show V c main_v9 (((cfg0.win 3).blk t).view.emb (ix2 q k)) = V c main_v9 (ix2 J k)
  refine congrArg _ (funext fun a => Fin.ext ?_)
  match a with
  | ⟨0, _⟩ => show win0_3.index t (0 : Fin 2) * 128 + 1 * q.val = J.val; rw [f3_0, hJ]; omega
  | ⟨1, _⟩ => show win0_3.index t (1 : Fin 2) * 1024 + 1 * k.val = k.val; rw [f3_1]; omega

/-- Window 4 stages, at point `t`, rows `128 t …` of its gate matrix. -/
theorem blk4_at (c : Dev nD) (t : Fin cfg0.N) (q : Fin 128) (k : Fin 1024) (J : Fin 2048) (hJ : J.val = t.val * 128 + q.val) :
    iblk0 V c 4 t (ix2 q k) = V c main_v10 (ix2 J k) := by
  obtain ⟨f0_0, f0_1, f1_0, f1_1, f2_0, f2_1, f3_0, f3_1, f4_0, f4_1, f5_0, f5_1, f6_0, f6_1, f7_0, f7_1, f8_0, f8_1, f9_0, f9_1, f10_0, f10_1, f11_0, f11_1, f12_0, f12_1, f13_0, f13_1, f14_0, f14_1, f15_0, f15_1, foff⟩ := idx_facts t
  unfold iblk0; rw [View.read_apply]
  show V c main_v10 (((cfg0.win 4).blk t).view.emb (ix2 q k)) = V c main_v10 (ix2 J k)
  refine congrArg _ (funext fun a => Fin.ext ?_)
  match a with
  | ⟨0, _⟩ => show win0_4.index t (0 : Fin 2) * 128 + 1 * q.val = J.val; rw [f4_0, hJ]; omega
  | ⟨1, _⟩ => show win0_4.index t (1 : Fin 2) * 1024 + 1 * k.val = k.val; rw [f4_1]; omega

/-- Window 5 stages, at point `t`, rows `128 t …` of its gate matrix. -/
theorem blk5_at (c : Dev nD) (t : Fin cfg0.N) (q : Fin 128) (k : Fin 2048) (J : Fin 2048) (hJ : J.val = t.val * 128 + q.val) :
    iblk0 V c 5 t (ix2 q k) = V c main_v11 (ix2 J k) := by
  obtain ⟨f0_0, f0_1, f1_0, f1_1, f2_0, f2_1, f3_0, f3_1, f4_0, f4_1, f5_0, f5_1, f6_0, f6_1, f7_0, f7_1, f8_0, f8_1, f9_0, f9_1, f10_0, f10_1, f11_0, f11_1, f12_0, f12_1, f13_0, f13_1, f14_0, f14_1, f15_0, f15_1, foff⟩ := idx_facts t
  unfold iblk0; rw [View.read_apply]
  show V c main_v11 (((cfg0.win 5).blk t).view.emb (ix2 q k)) = V c main_v11 (ix2 J k)
  refine congrArg _ (funext fun a => Fin.ext ?_)
  match a with
  | ⟨0, _⟩ => show win0_5.index t (0 : Fin 2) * 128 + 1 * q.val = J.val; rw [f5_0, hJ]; omega
  | ⟨1, _⟩ => show win0_5.index t (1 : Fin 2) * 2048 + 1 * k.val = k.val; rw [f5_1]; omega

/-- Window 6 stages, at point `t`, rows `128 t …` of its gate matrix. -/
theorem blk6_at (c : Dev nD) (t : Fin cfg0.N) (q : Fin 128) (k : Fin 2048) (J : Fin 2048) (hJ : J.val = t.val * 128 + q.val) :
    iblk0 V c 6 t (ix2 q k) = V c main_v12 (ix2 J k) := by
  obtain ⟨f0_0, f0_1, f1_0, f1_1, f2_0, f2_1, f3_0, f3_1, f4_0, f4_1, f5_0, f5_1, f6_0, f6_1, f7_0, f7_1, f8_0, f8_1, f9_0, f9_1, f10_0, f10_1, f11_0, f11_1, f12_0, f12_1, f13_0, f13_1, f14_0, f14_1, f15_0, f15_1, foff⟩ := idx_facts t
  unfold iblk0; rw [View.read_apply]
  show V c main_v12 (((cfg0.win 6).blk t).view.emb (ix2 q k)) = V c main_v12 (ix2 J k)
  refine congrArg _ (funext fun a => Fin.ext ?_)
  match a with
  | ⟨0, _⟩ => show win0_6.index t (0 : Fin 2) * 128 + 1 * q.val = J.val; rw [f6_0, hJ]; omega
  | ⟨1, _⟩ => show win0_6.index t (1 : Fin 2) * 2048 + 1 * k.val = k.val; rw [f6_1]; omega

/-- Window 7 stages, at point `t`, rows `128 t …` of its gate matrix. -/
theorem blk7_at (c : Dev nD) (t : Fin cfg0.N) (q : Fin 128) (k : Fin 2048) (J : Fin 2048) (hJ : J.val = t.val * 128 + q.val) :
    iblk0 V c 7 t (ix2 q k) = V c main_v13 (ix2 J k) := by
  obtain ⟨f0_0, f0_1, f1_0, f1_1, f2_0, f2_1, f3_0, f3_1, f4_0, f4_1, f5_0, f5_1, f6_0, f6_1, f7_0, f7_1, f8_0, f8_1, f9_0, f9_1, f10_0, f10_1, f11_0, f11_1, f12_0, f12_1, f13_0, f13_1, f14_0, f14_1, f15_0, f15_1, foff⟩ := idx_facts t
  unfold iblk0; rw [View.read_apply]
  show V c main_v13 (((cfg0.win 7).blk t).view.emb (ix2 q k)) = V c main_v13 (ix2 J k)
  refine congrArg _ (funext fun a => Fin.ext ?_)
  match a with
  | ⟨0, _⟩ => show win0_7.index t (0 : Fin 2) * 128 + 1 * q.val = J.val; rw [f7_0, hJ]; omega
  | ⟨1, _⟩ => show win0_7.index t (1 : Fin 2) * 2048 + 1 * k.val = k.val; rw [f7_1]; omega

/-- Window 8 stages, at point `t`, lanes `128 t …` of its bias row. -/
theorem blk8_at (c : Dev nD) (t : Fin cfg0.N) (q : Fin 128) (J : Fin 2048) (hJ : J.val = t.val * 128 + q.val) :
    iblk0 V c 8 t (ix2 (0 : Fin 1) q) = V c main_v16 (ix2 (0 : Fin 1) J) := by
  obtain ⟨f0_0, f0_1, f1_0, f1_1, f2_0, f2_1, f3_0, f3_1, f4_0, f4_1, f5_0, f5_1, f6_0, f6_1, f7_0, f7_1, f8_0, f8_1, f9_0, f9_1, f10_0, f10_1, f11_0, f11_1, f12_0, f12_1, f13_0, f13_1, f14_0, f14_1, f15_0, f15_1, foff⟩ := idx_facts t
  unfold iblk0; rw [View.read_apply]
  show V c main_v16 (((cfg0.win 8).blk t).view.emb (ix2 (0 : Fin 1) q)) = V c main_v16 (ix2 (0 : Fin 1) J)
  refine congrArg _ (funext fun a => Fin.ext ?_)
  match a with
  | ⟨0, _⟩ => show win0_8.index t (0 : Fin 2) * 1 + 1 * 0 = 0; rw [f8_0]
  | ⟨1, _⟩ => show win0_8.index t (1 : Fin 2) * 128 + 1 * q.val = J.val; rw [f8_1, hJ]; omega

/-- Window 9 stages, at point `t`, lanes `128 t …` of its bias row. -/
theorem blk9_at (c : Dev nD) (t : Fin cfg0.N) (q : Fin 128) (J : Fin 2048) (hJ : J.val = t.val * 128 + q.val) :
    iblk0 V c 9 t (ix2 (0 : Fin 1) q) = V c main_v17 (ix2 (0 : Fin 1) J) := by
  obtain ⟨f0_0, f0_1, f1_0, f1_1, f2_0, f2_1, f3_0, f3_1, f4_0, f4_1, f5_0, f5_1, f6_0, f6_1, f7_0, f7_1, f8_0, f8_1, f9_0, f9_1, f10_0, f10_1, f11_0, f11_1, f12_0, f12_1, f13_0, f13_1, f14_0, f14_1, f15_0, f15_1, foff⟩ := idx_facts t
  unfold iblk0; rw [View.read_apply]
  show V c main_v17 (((cfg0.win 9).blk t).view.emb (ix2 (0 : Fin 1) q)) = V c main_v17 (ix2 (0 : Fin 1) J)
  refine congrArg _ (funext fun a => Fin.ext ?_)
  match a with
  | ⟨0, _⟩ => show win0_9.index t (0 : Fin 2) * 1 + 1 * 0 = 0; rw [f9_0]
  | ⟨1, _⟩ => show win0_9.index t (1 : Fin 2) * 128 + 1 * q.val = J.val; rw [f9_1, hJ]; omega

/-- Window 10 stages, at point `t`, lanes `128 t …` of its bias row. -/
theorem blk10_at (c : Dev nD) (t : Fin cfg0.N) (q : Fin 128) (J : Fin 2048) (hJ : J.val = t.val * 128 + q.val) :
    iblk0 V c 10 t (ix2 (0 : Fin 1) q) = V c main_v18 (ix2 (0 : Fin 1) J) := by
  obtain ⟨f0_0, f0_1, f1_0, f1_1, f2_0, f2_1, f3_0, f3_1, f4_0, f4_1, f5_0, f5_1, f6_0, f6_1, f7_0, f7_1, f8_0, f8_1, f9_0, f9_1, f10_0, f10_1, f11_0, f11_1, f12_0, f12_1, f13_0, f13_1, f14_0, f14_1, f15_0, f15_1, foff⟩ := idx_facts t
  unfold iblk0; rw [View.read_apply]
  show V c main_v18 (((cfg0.win 10).blk t).view.emb (ix2 (0 : Fin 1) q)) = V c main_v18 (ix2 (0 : Fin 1) J)
  refine congrArg _ (funext fun a => Fin.ext ?_)
  match a with
  | ⟨0, _⟩ => show win0_10.index t (0 : Fin 2) * 1 + 1 * 0 = 0; rw [f10_0]
  | ⟨1, _⟩ => show win0_10.index t (1 : Fin 2) * 128 + 1 * q.val = J.val; rw [f10_1, hJ]; omega

/-- Window 11 stages, at point `t`, lanes `128 t …` of its bias row. -/
theorem blk11_at (c : Dev nD) (t : Fin cfg0.N) (q : Fin 128) (J : Fin 2048) (hJ : J.val = t.val * 128 + q.val) :
    iblk0 V c 11 t (ix2 (0 : Fin 1) q) = V c main_v19 (ix2 (0 : Fin 1) J) := by
  obtain ⟨f0_0, f0_1, f1_0, f1_1, f2_0, f2_1, f3_0, f3_1, f4_0, f4_1, f5_0, f5_1, f6_0, f6_1, f7_0, f7_1, f8_0, f8_1, f9_0, f9_1, f10_0, f10_1, f11_0, f11_1, f12_0, f12_1, f13_0, f13_1, f14_0, f14_1, f15_0, f15_1, foff⟩ := idx_facts t
  unfold iblk0; rw [View.read_apply]
  show V c main_v19 (((cfg0.win 11).blk t).view.emb (ix2 (0 : Fin 1) q)) = V c main_v19 (ix2 (0 : Fin 1) J)
  refine congrArg _ (funext fun a => Fin.ext ?_)
  match a with
  | ⟨0, _⟩ => show win0_11.index t (0 : Fin 2) * 1 + 1 * 0 = 0; rw [f11_0]
  | ⟨1, _⟩ => show win0_11.index t (1 : Fin 2) * 128 + 1 * q.val = J.val; rw [f11_1, hJ]; omega

/-- Window 12 stages, at point `t`, lanes `128 t …` of its bias row. -/
theorem blk12_at (c : Dev nD) (t : Fin cfg0.N) (q : Fin 128) (J : Fin 2048) (hJ : J.val = t.val * 128 + q.val) :
    iblk0 V c 12 t (ix2 (0 : Fin 1) q) = V c main_v20 (ix2 (0 : Fin 1) J) := by
  obtain ⟨f0_0, f0_1, f1_0, f1_1, f2_0, f2_1, f3_0, f3_1, f4_0, f4_1, f5_0, f5_1, f6_0, f6_1, f7_0, f7_1, f8_0, f8_1, f9_0, f9_1, f10_0, f10_1, f11_0, f11_1, f12_0, f12_1, f13_0, f13_1, f14_0, f14_1, f15_0, f15_1, foff⟩ := idx_facts t
  unfold iblk0; rw [View.read_apply]
  show V c main_v20 (((cfg0.win 12).blk t).view.emb (ix2 (0 : Fin 1) q)) = V c main_v20 (ix2 (0 : Fin 1) J)
  refine congrArg _ (funext fun a => Fin.ext ?_)
  match a with
  | ⟨0, _⟩ => show win0_12.index t (0 : Fin 2) * 1 + 1 * 0 = 0; rw [f12_0]
  | ⟨1, _⟩ => show win0_12.index t (1 : Fin 2) * 128 + 1 * q.val = J.val; rw [f12_1, hJ]; omega

/-- Window 13 stages, at point `t`, lanes `128 t …` of its bias row. -/
theorem blk13_at (c : Dev nD) (t : Fin cfg0.N) (q : Fin 128) (J : Fin 2048) (hJ : J.val = t.val * 128 + q.val) :
    iblk0 V c 13 t (ix2 (0 : Fin 1) q) = V c main_v21 (ix2 (0 : Fin 1) J) := by
  obtain ⟨f0_0, f0_1, f1_0, f1_1, f2_0, f2_1, f3_0, f3_1, f4_0, f4_1, f5_0, f5_1, f6_0, f6_1, f7_0, f7_1, f8_0, f8_1, f9_0, f9_1, f10_0, f10_1, f11_0, f11_1, f12_0, f12_1, f13_0, f13_1, f14_0, f14_1, f15_0, f15_1, foff⟩ := idx_facts t
  unfold iblk0; rw [View.read_apply]
  show V c main_v21 (((cfg0.win 13).blk t).view.emb (ix2 (0 : Fin 1) q)) = V c main_v21 (ix2 (0 : Fin 1) J)
  refine congrArg _ (funext fun a => Fin.ext ?_)
  match a with
  | ⟨0, _⟩ => show win0_13.index t (0 : Fin 2) * 1 + 1 * 0 = 0; rw [f13_0]
  | ⟨1, _⟩ => show win0_13.index t (1 : Fin 2) * 128 + 1 * q.val = J.val; rw [f13_1, hJ]; omega

/-- The 128 columns of `h` the body loads at its own offset are columns `128 t …` of `h`. -/
theorem hcol_at (c : Dev nD) (t : Fin cfg0.N) (p : Fin 512) (q : Fin 128) (J : Fin 2048) (hJ : J.val = t.val * 128 + q.val) :
    (View.ld (iblk0 V c 1 t) (Rect.unit (s := S512x2048) (k0_off1 (grid0.coords t)) S512x128.size (k0_off1_inb (grid0.coords t)))) (ix2 p q) = V c main_v7 (ix2 p J) := by
  obtain ⟨f0_0, f0_1, f1_0, f1_1, f2_0, f2_1, f3_0, f3_1, f4_0, f4_1, f5_0, f5_1, f6_0, f6_1, f7_0, f7_1, f8_0, f8_1, f9_0, f9_1, f10_0, f10_1, f11_0, f11_1, f12_0, f12_1, f13_0, f13_1, f14_0, f14_1, f15_0, f15_1, foff⟩ := idx_facts t
  show iblk0 V c 1 t ((Rect.unit (s := S512x2048) (k0_off1 (grid0.coords t)) S512x128.size (k0_off1_inb (grid0.coords t))).idx (ix2 p q)) = _
  have e : (Rect.unit (s := S512x2048) (k0_off1 (grid0.coords t)) S512x128.size (k0_off1_inb (grid0.coords t))).idx (ix2 p q) = ix2 p J :=
    funext fun a => Fin.ext (by
      match a with
      | ⟨0, _⟩ => show k0_off1 (grid0.coords t) 0 + 1 * p.val = p.val; rw [foff]; show 0 + 1 * p.val = p.val; omega
      | ⟨1, _⟩ => show k0_off1 (grid0.coords t) 1 + 1 * q.val = J.val; rw [foff, hJ]; show 128 * t.val + 1 * q.val = t.val * 128 + q.val; omega)
  rw [e]
  exact blk1_at V c t p J

/-- The new hidden value at `(p, J)` from the region's entry arrays: the batch operands, the three gate matrices and bias rows
    of each side. -/
def newHiddenAt (c : Dev nD) (p : Fin 512) (J : Fin 2048) : EReal :=
  cell (pre (fun k => (V c main_v6 : Mat 512 1024) (ix2 p k)) (fun k => (V c main_v8 : Mat 2048 1024) (ix2 J k)) ((V c main_v16 : Mat 1 2048) (ix2 (0 : Fin 1) J)))
    (pre (fun k => (V c main_v6 : Mat 512 1024) (ix2 p k)) (fun k => (V c main_v9 : Mat 2048 1024) (ix2 J k)) ((V c main_v17 : Mat 1 2048) (ix2 (0 : Fin 1) J)))
    (pre (fun k => (V c main_v6 : Mat 512 1024) (ix2 p k)) (fun k => (V c main_v10 : Mat 2048 1024) (ix2 J k)) ((V c main_v18 : Mat 1 2048) (ix2 (0 : Fin 1) J)))
    (pre (fun k => (V c main_v7 : Mat 512 2048) (ix2 p k)) (fun k => (V c main_v11 : Mat 2048 2048) (ix2 J k)) ((V c main_v19 : Mat 1 2048) (ix2 (0 : Fin 1) J)))
    (pre (fun k => (V c main_v7 : Mat 512 2048) (ix2 p k)) (fun k => (V c main_v12 : Mat 2048 2048) (ix2 J k)) ((V c main_v20 : Mat 1 2048) (ix2 (0 : Fin 1) J)))
    (pre (fun k => (V c main_v7 : Mat 512 2048) (ix2 p k)) (fun k => (V c main_v13 : Mat 2048 2048) (ix2 J k)) ((V c main_v21 : Mat 1 2048) (ix2 (0 : Fin 1) J)))
    ((V c main_v7 : Mat 512 2048) (ix2 p J))

/-- The new hidden state from the region's entry arrays. -/
def newHidden (c : Dev nD) : S512x2048.Idx → EReal := fun i => newHiddenAt V c (i 0) (i 1)

/-- What point `t` writes back to the f32 result is block `t` of the new hidden state. -/
theorem flushed_f32 (c : Dev nD) (t : Fin cfg0.N) :
    (dat0 V c).flushed 14 t = ((cfg0.win 14).blk t).view.read (Elt Ideal) (newHidden V c) := by
  show (cfg0.win 14).cut (grid0.coords t) ((dat0 V c).after 14 t) = _
  rw [after0_14]
  unfold outsAt0
  dsimp only
  rw [block_f32]
  obtain ⟨f0_0, f0_1, f1_0, f1_1, f2_0, f2_1, f3_0, f3_1, f4_0, f4_1, f5_0, f5_1, f6_0, f6_1, f7_0, f7_1, f8_0, f8_1, f9_0, f9_1, f10_0, f10_1, f11_0, f11_1, f12_0, f12_1, f13_0, f13_1, f14_0, f14_1, f15_0, f15_1, foff⟩ := idx_facts t
  funext y
  obtain ⟨p, q, rfl⟩ : ∃ (p : Fin 512) (q : Fin 128), y = ix2 p q := ⟨y 0, y 1, eq_ix2 y⟩
  have hN : cfg0.N = 16 := N_0
  have hJlt : t.val * 128 + q.val < 2048 := by have := t.isLt; have := q.isLt; omega
  have eR : ((cfg0.win 14).blk t).view.emb (ix2 p q) = ix2 p (⟨t.val * 128 + q.val, hJlt⟩ : Fin 2048) := funext fun a => Fin.ext (by
    match a with
    | ⟨0, _⟩ => show win0_14.index t (0 : Fin 2) * 512 + 1 * p.val = p.val; rw [f14_0]; omega
    | ⟨1, _⟩ => show win0_14.index t (1 : Fin 2) * 128 + 1 * q.val = t.val * 128 + q.val; rw [f14_1]; omega)
  refine (pay_f32_at (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (View.ld (iblk0 V c 1 t) (Rect.unit (s := S512x2048) (k0_off1 (grid0.coords t)) S512x128.size (k0_off1_inb (grid0.coords t)))) p q).trans ?_
  show _ = newHidden V c (((cfg0.win 14).blk t).view.emb (ix2 p q))
  rw [eR]
  show _ = newHiddenAt V c p ⟨t.val * 128 + q.val, hJlt⟩
  generalize hJ : (⟨t.val * 128 + q.val, hJlt⟩ : Fin 2048) = J
  have hJv : J.val = t.val * 128 + q.val := by rw [← hJ]
  unfold newHiddenAt
  simp only [blk0_at V c t p, blk1_at V c t p,
    (fun k => blk2_at V c t q k J hJv), (fun k => blk3_at V c t q k J hJv), (fun k => blk4_at V c t q k J hJv),
    (fun k => blk5_at V c t q k J hJv), (fun k => blk6_at V c t q k J hJv), (fun k => blk7_at V c t q k J hJv),
    blk8_at V c t q J hJv, blk9_at V c t q J hJv, blk10_at V c t q J hJv, blk11_at V c t q J hJv, blk12_at V c t q J hJv, blk13_at V c t q J hJv,
    hcol_at V c t p q J hJv]

/-- What point `t` writes back to the bf16 result is the same block: narrowing is the identity on extended reals. -/
theorem flushed_bf16 (c : Dev nD) (t : Fin cfg0.N) :
    (dat0 V c).flushed 15 t = ((cfg0.win 15).blk t).view.read (Elt Ideal) (newHidden V c) := by
  show (cfg0.win 15).cut (grid0.coords t) ((dat0 V c).after 15 t) = _
  rw [after0_15]
  unfold outsAt0
  dsimp only
  rw [block_bf16]
  obtain ⟨f0_0, f0_1, f1_0, f1_1, f2_0, f2_1, f3_0, f3_1, f4_0, f4_1, f5_0, f5_1, f6_0, f6_1, f7_0, f7_1, f8_0, f8_1, f9_0, f9_1, f10_0, f10_1, f11_0, f11_1, f12_0, f12_1, f13_0, f13_1, f14_0, f14_1, f15_0, f15_1, foff⟩ := idx_facts t
  funext y
  obtain ⟨p, q, rfl⟩ : ∃ (p : Fin 512) (q : Fin 128), y = ix2 p q := ⟨y 0, y 1, eq_ix2 y⟩
  have hN : cfg0.N = 16 := N_0
  have hJlt : t.val * 128 + q.val < 2048 := by have := t.isLt; have := q.isLt; omega
  have eR : ((cfg0.win 15).blk t).view.emb (ix2 p q) = ix2 p (⟨t.val * 128 + q.val, hJlt⟩ : Fin 2048) := funext fun a => Fin.ext (by
    match a with
    | ⟨0, _⟩ => show win0_15.index t (0 : Fin 2) * 512 + 1 * p.val = p.val; rw [f15_0]; omega
    | ⟨1, _⟩ => show win0_15.index t (1 : Fin 2) * 128 + 1 * q.val = t.val * 128 + q.val; rw [f15_1]; omega)
  refine (pay_f32_at (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (View.ld (iblk0 V c 1 t) (Rect.unit (s := S512x2048) (k0_off1 (grid0.coords t)) S512x128.size (k0_off1_inb (grid0.coords t)))) p q).trans ?_
  show _ = newHidden V c (((cfg0.win 15).blk t).view.emb (ix2 p q))
  rw [eR]
  show _ = newHiddenAt V c p ⟨t.val * 128 + q.val, hJlt⟩
  generalize hJ : (⟨t.val * 128 + q.val, hJlt⟩ : Fin 2048) = J
  have hJv : J.val = t.val * 128 + q.val := by rw [← hJ]
  unfold newHiddenAt
  simp only [blk0_at V c t p, blk1_at V c t p,
    (fun k => blk2_at V c t q k J hJv), (fun k => blk3_at V c t q k J hJv), (fun k => blk4_at V c t q k J hJv),
    (fun k => blk5_at V c t q k J hJv), (fun k => blk6_at V c t q k J hJv), (fun k => blk7_at V c t q k J hJv),
    blk8_at V c t q J hJv, blk9_at V c t q J hJv, blk10_at V c t q J hJv, blk11_at V c t q J hJv, blk12_at V c t q J hJv, blk13_at V c t q J hJv,
    hcol_at V c t p q J hJv]

/-- Every position of the f32 result is in the block of the point its column falls in. -/
theorem cover_f32 (i : S512x2048.Idx) : ∃ t : Fin cfg0.N, (cfg0.win 14).flush t = true ∧ i ∈ ((cfg0.win 14).blk t).view.set := by
  have hN : cfg0.N = 16 := N_0
  have h1 : (i 1).val < 2048 := (i 1).isLt
  have h0 : (i 0).val < 512 := (i 0).isLt
  have ht : (i 1).val / 128 < cfg0.N := by omega
  obtain ⟨f0_0, f0_1, f1_0, f1_1, f2_0, f2_1, f3_0, f3_1, f4_0, f4_1, f5_0, f5_1, f6_0, f6_1, f7_0, f7_1, f8_0, f8_1, f9_0, f9_1, f10_0, f10_1, f11_0, f11_1, f12_0, f12_1, f13_0, f13_1, f14_0, f14_1, f15_0, f15_1, foff⟩ := idx_facts ⟨(i 1).val / 128, ht⟩
  refine ⟨⟨(i 1).val / 128, ht⟩, flush0_14 _, ?_⟩
  show i ∈ ((View.whole main_v23_0).slice (win0_14.rect ⟨(i 1).val / 128, ht⟩)).set
  rw [View.set_slice_whole, Rect.mem_set_unit]
  intro a
  match a with
  | ⟨0, _⟩ =>
    show win0_14.index ⟨(i 1).val / 128, ht⟩ (0 : Fin 2) * 512 ≤ (i 0).val ∧ (i 0).val < win0_14.index ⟨(i 1).val / 128, ht⟩ (0 : Fin 2) * 512 + 512
    rw [f14_0]; omega
  | ⟨1, _⟩ =>
    show win0_14.index ⟨(i 1).val / 128, ht⟩ (1 : Fin 2) * 128 ≤ (i 1).val ∧ (i 1).val < win0_14.index ⟨(i 1).val / 128, ht⟩ (1 : Fin 2) * 128 + 128
    rw [f14_1]; show (i 1).val / 128 * 128 ≤ (i 1).val ∧ (i 1).val < (i 1).val / 128 * 128 + 128; omega

/-- Every position of the bf16 result is in the block of the point its column falls in. -/
theorem cover_bf16 (i : S512x2048.Idx) : ∃ t : Fin cfg0.N, (cfg0.win 15).flush t = true ∧ i ∈ ((cfg0.win 15).blk t).view.set := by
  have hN : cfg0.N = 16 := N_0
  have h1 : (i 1).val < 2048 := (i 1).isLt
  have h0 : (i 0).val < 512 := (i 0).isLt
  have ht : (i 1).val / 128 < cfg0.N := by omega
  obtain ⟨f0_0, f0_1, f1_0, f1_1, f2_0, f2_1, f3_0, f3_1, f4_0, f4_1, f5_0, f5_1, f6_0, f6_1, f7_0, f7_1, f8_0, f8_1, f9_0, f9_1, f10_0, f10_1, f11_0, f11_1, f12_0, f12_1, f13_0, f13_1, f14_0, f14_1, f15_0, f15_1, foff⟩ := idx_facts ⟨(i 1).val / 128, ht⟩
  refine ⟨⟨(i 1).val / 128, ht⟩, flush0_15 _, ?_⟩
  show i ∈ ((View.whole main_v23_1).slice (win0_15.rect ⟨(i 1).val / 128, ht⟩)).set
  rw [View.set_slice_whole, Rect.mem_set_unit]
  intro a
  match a with
  | ⟨0, _⟩ =>
    show win0_15.index ⟨(i 1).val / 128, ht⟩ (0 : Fin 2) * 512 ≤ (i 0).val ∧ (i 0).val < win0_15.index ⟨(i 1).val / 128, ht⟩ (0 : Fin 2) * 512 + 512
    rw [f15_0]; omega
  | ⟨1, _⟩ =>
    show win0_15.index ⟨(i 1).val / 128, ht⟩ (1 : Fin 2) * 128 ≤ (i 1).val ∧ (i 1).val < win0_15.index ⟨(i 1).val / 128, ht⟩ (1 : Fin 2) * 128 + 128
    rw [f15_1]; show (i 1).val / 128 * 128 ≤ (i 1).val ∧ (i 1).val < (i 1).val / 128 * 128 + 128; omega

/-- After the region the f32 result array is the new hidden state of the entry arrays. -/
theorem final_f32 (c : Dev nD) : (dat0 V c).arrAt 14 cfg0.N = newHidden V c :=
  (dat0 V c).arrAt_eq_of_cover 14 (newHidden V c) (fun t _ => flushed_f32 V c t) cover_f32

/-- After the region the bf16 result array is the new hidden state of the entry arrays. -/
theorem final_bf16 (c : Dev nD) : (dat0 V c).arrAt 15 cfg0.N = newHidden V c :=
  (dat0 V c).arrAt_eq_of_cover 15 (newHidden V c) (fun t _ => flushed_bf16 V c t) cover_bf16

end Cert.KernelIdeal.GruStep

end
-- ==== Proof.LogitsArray.lean ====
/-
  The logits region's result array after its fifty grid points, as one function of the arrays the region finds on entry.
  Point `t` stages the whole 512 × 2048 hidden state, rows `640 t …` of the projection matrix and lanes `640 t …` of its bias
  row, and writes back columns `640 t …` of the logits: at `(p, q)` of its block, the inner product of hidden row `p` with
  projection row `640 t + q`, plus that row's bias.  The fifty column blocks tile the 512 × 32000 result.
-/
import proofs.«121000_j3753801417244_2_alg».proof.Proof.Gen.KernelIdeal.Frame
import proofs.«121000_j3753801417244_2_alg».proof.Proof.GruSpec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Logits

open Cert.KernelIdeal Cert.KernelIdeal.Gen Cert.GruSpec
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

theorem mm_w_l0 (i : S512x640.Idx) (q : dot_S512x2048_S640x2048_S512x640_1_1_0_0_n_n.contr.Idx) : (dot_S512x2048_S640x2048_S512x640_1_1_0_0_n_n.lhsIdx i q 0).val = (i 0).val := by
  unfold DotDims.lhsIdx
  rw [dif_neg (show ¬(0 : Fin S512x2048.rank) ∈ dot_S512x2048_S640x2048_S512x640_1_1_0_0_n_n.lhsBatch by decide), dif_pos (show (0 : Fin S512x2048.rank) ∈ dot_S512x2048_S640x2048_S512x640_1_1_0_0_n_n.lhsNonContracting by decide)]
  rfl
theorem mm_w_r0 (i : S512x640.Idx) (q : dot_S512x2048_S640x2048_S512x640_1_1_0_0_n_n.contr.Idx) : (dot_S512x2048_S640x2048_S512x640_1_1_0_0_n_n.rhsIdx i q 0).val = (i 1).val := by
  unfold DotDims.rhsIdx
  rw [dif_neg (show ¬(0 : Fin S640x2048.rank) ∈ dot_S512x2048_S640x2048_S512x640_1_1_0_0_n_n.rhsBatch by decide), dif_pos (show (0 : Fin S640x2048.rank) ∈ dot_S512x2048_S640x2048_S512x640_1_1_0_0_n_n.rhsNonContracting by decide)]
  rfl
/-- A product into the zero accumulator, both operands contracted along their second axis: at `(p, q)` the inner product of
    row `p` of the left operand with row `q` of the right. -/
theorem mm_w {φ₁ φ₂ : FTy} (l : FVec Ideal S512x2048 φ₁) (r : FVec Ideal S640x2048 φ₂) (p : Fin 512) (q : Fin 640) :
    matmul dot_S512x2048_S640x2048_S512x640_1_1_0_0_n_n none l r (constant (F := Ideal) S512x640 .f32 0x00000000#32) (ix2 p q)
      = ∑ k : Fin 2048, l (ix2 p k) * r (ix2 q k) := by
  simp only [matmul]
  rw [Ideal.matmul_constant_zero_apply, ← Equiv.sum_comp (ValueIdx.contrEquiv1 dot_S512x2048_S640x2048_S512x640_1_1_0_0_n_n 2048 rfl rfl).symm]
  refine Finset.sum_congr rfl fun k _ => ?_
  have hk := ValueIdx.contrEquiv1_symm_val dot_S512x2048_S640x2048_S512x640_1_1_0_0_n_n 2048 rfl rfl k
  have el : dot_S512x2048_S640x2048_S512x640_1_1_0_0_n_n.lhsIdx (ix2 p q) ((ValueIdx.contrEquiv1 dot_S512x2048_S640x2048_S512x640_1_1_0_0_n_n 2048 rfl rfl).symm k) = ix2 p k := funext fun a => Fin.ext (by
    match a with
    | ⟨0, _⟩ => exact mm_w_l0 _ _
    | ⟨1, _⟩ => exact (dot_S512x2048_S640x2048_S512x640_1_1_0_0_n_n.lhsIdx_val_of_single rfl _ _).trans hk)
  have er : dot_S512x2048_S640x2048_S512x640_1_1_0_0_n_n.rhsIdx (ix2 p q) ((ValueIdx.contrEquiv1 dot_S512x2048_S640x2048_S512x640_1_1_0_0_n_n 2048 rfl rfl).symm k) = ix2 q k := funext fun a => Fin.ext (by
    match a with
    | ⟨0, _⟩ => exact mm_w_r0 _ _
    | ⟨1, _⟩ => exact (dot_S512x2048_S640x2048_S512x640_1_1_0_0_n_n.rhsIdx_val_of_single rfl _ _).trans hk)
  rw [el, er]

/-- The body's arithmetic at `(p, q)` of its block: an inner product plus the broadcast bias. -/
theorem pay_at (h : Vec Ideal S512x2048 .bf16) (w : Vec Ideal S640x2048 .f32) (b : Vec Ideal S1x640 .f32) (p : Fin 512) (q : Fin 640) :
    k1_pay1 h w b (ix2 p q) = pre (fun k => h (ix2 p k)) (fun k => w (ix2 q k)) (b (ix2 (0 : Fin 1) q)) := by
  unfold k1_pay1
  simp only [addf_apply, mm_w, truncf_apply, shapeCast_self, broadcastTo_1b_ab_apply]
  rfl

variable (V : (c : Dev nD) → (b : Ref sig .tc) → Buf (Elt Ideal) ((c : Thread nD τ).loc b))

/-- The printed index maps over the fifty points: the hidden state's block never moves; the projection matrix's block is row
    block `t`; the bias row's and the result's block is column block `t`. -/
theorem idx_facts : ∀ t : Fin cfg1.N, win1_0.index t (0 : Fin 2) = 0
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = t.val
    ∧ win1_3.index t (0 : Fin 2) = 0
    ∧ win1_3.index t (1 : Fin 2) = t.val :=
  (by decide +kernel : ∀ t : Fin grid1.N, _)

/-- Window 0 stages the whole hidden state at every point. -/
theorem blk0_at (c : Dev nD) (t : Fin cfg1.N) (p : Fin 512) (k : Fin 2048) :
    iblk1 V c 0 t (ix2 p k) = V c main_v23_1 (ix2 p k) := by
  obtain ⟨g0_0, g0_1, g1_0, g1_1, g2_0, g2_1, g3_0, g3_1⟩ := idx_facts t
  unfold iblk1; rw [View.read_apply]
  show V c main_v23_1 (((cfg1.win 0).blk t).view.emb (ix2 p k)) = V c main_v23_1 (ix2 p k)
  refine congrArg _ (funext fun a => Fin.ext ?_)
  match a with
  | ⟨0, _⟩ => show win1_0.index t (0 : Fin 2) * 512 + 1 * p.val = p.val; rw [g0_0]; omega
  | ⟨1, _⟩ => show win1_0.index t (1 : Fin 2) * 2048 + 1 * k.val = k.val; rw [g0_1]; omega

/-- Window 1 stages, at point `t`, rows `640 t …` of the projection matrix. -/
theorem blk1_at (c : Dev nD) (t : Fin cfg1.N) (q : Fin 640) (k : Fin 2048) (J : Fin 32000) (hJ : J.val = t.val * 640 + q.val) :
    iblk1 V c 1 t (ix2 q k) = V c main_arg7 (ix2 J k) := by
  obtain ⟨g0_0, g0_1, g1_0, g1_1, g2_0, g2_1, g3_0, g3_1⟩ := idx_facts t
  unfold iblk1; rw [View.read_apply]
  show V c main_arg7 (((cfg1.win 1).blk t).view.emb (ix2 q k)) = V c main_arg7 (ix2 J k)
  refine congrArg _ (funext fun a => Fin.ext ?_)
  match a with
  | ⟨0, _⟩ => show win1_1.index t (0 : Fin 2) * 640 + 1 * q.val = J.val; rw [g1_0, hJ]; omega
  | ⟨1, _⟩ => show win1_1.index t (1 : Fin 2) * 2048 + 1 * k.val = k.val; rw [g1_1]; omega

/-- Window 2 stages, at point `t`, lanes `640 t …` of the bias row. -/
theorem blk2_at (c : Dev nD) (t : Fin cfg1.N) (q : Fin 640) (J : Fin 32000) (hJ : J.val = t.val * 640 + q.val) :
    iblk1 V c 2 t (ix2 (0 : Fin 1) q) = V c main_v22 (ix2 (0 : Fin 1) J) := by
  obtain ⟨g0_0, g0_1, g1_0, g1_1, g2_0, g2_1, g3_0, g3_1⟩ := idx_facts t
  unfold iblk1; rw [View.read_apply]
  show V c main_v22 (((cfg1.win 2).blk t).view.emb (ix2 (0 : Fin 1) q)) = V c main_v22 (ix2 (0 : Fin 1) J)
  refine congrArg _ (funext fun a => Fin.ext ?_)
  match a with
  | ⟨0, _⟩ => show win1_2.index t (0 : Fin 2) * 1 + 1 * 0 = 0; rw [g2_0]
  | ⟨1, _⟩ => show win1_2.index t (1 : Fin 2) * 640 + 1 * q.val = J.val; rw [g2_1, hJ]; omega

/-- A logit at `(p, v)` from the region's entry arrays. -/
def logitEntryAt (c : Dev nD) (p : Fin 512) (v : Fin 32000) : EReal :=
  pre (fun k => (V c main_v23_1 : Mat 512 2048) (ix2 p k)) (fun k => (V c main_arg7 : Mat 32000 2048) (ix2 v k))
    ((V c main_v22 : Mat 1 32000) (ix2 (0 : Fin 1) v))

/-- The logits from the region's entry arrays. -/
def logitsEntry (c : Dev nD) : S512x32000.Idx → EReal := fun i => logitEntryAt V c (i 0) (i 1)

/-- What point `t` writes back is block `t` of the logits. -/
theorem flushed_eq (c : Dev nD) (t : Fin cfg1.N) :
    (dat1 V c).flushed 3 t = ((cfg1.win 3).blk t).view.read (Elt Ideal) (logitsEntry V c) := by
  show (cfg1.win 3).cut (grid1.coords t) ((dat1 V c).after 3 t) = _
  rw [after1_3]
  unfold out1_3
  rw [View.canon_unit_zero hz]
  simp only [View.ld_unit_zero (S := S512x2048) hz, View.ld_unit_zero (S := S640x2048) hz, View.ld_unit_zero (S := S1x640) hz]
  obtain ⟨g0_0, g0_1, g1_0, g1_1, g2_0, g2_1, g3_0, g3_1⟩ := idx_facts t
  funext y
  obtain ⟨p, q, rfl⟩ : ∃ (p : Fin 512) (q : Fin 640), y = ix2 p q := ⟨y 0, y 1, eq_ix2 y⟩
  have hN : cfg1.N = 50 := N_1
  have hJlt : t.val * 640 + q.val < 32000 := by have := t.isLt; have := q.isLt; omega
  have eR : ((cfg1.win 3).blk t).view.emb (ix2 p q) = ix2 p (⟨t.val * 640 + q.val, hJlt⟩ : Fin 32000) := funext fun a => Fin.ext (by
    match a with
    | ⟨0, _⟩ => show win1_3.index t (0 : Fin 2) * 512 + 1 * p.val = p.val; rw [g3_0]; omega
    | ⟨1, _⟩ => show win1_3.index t (1 : Fin 2) * 640 + 1 * q.val = t.val * 640 + q.val; rw [g3_1]; omega)
  refine (pay_at (iblk1 V c 0 t) (iblk1 V c 1 t) (iblk1 V c 2 t) p q).trans ?_
  show _ = logitsEntry V c (((cfg1.win 3).blk t).view.emb (ix2 p q))
  rw [eR]
  show _ = logitEntryAt V c p ⟨t.val * 640 + q.val, hJlt⟩
  generalize hJ : (⟨t.val * 640 + q.val, hJlt⟩ : Fin 32000) = J
  have hJv : J.val = t.val * 640 + q.val := by rw [← hJ]
  unfold logitEntryAt
  simp only [blk0_at V c t p, (fun k => blk1_at V c t q k J hJv), blk2_at V c t q J hJv]

/-- Every position of the logits is in the block of the point its column falls in. -/
theorem cover (i : S512x32000.Idx) : ∃ t : Fin cfg1.N, (cfg1.win 3).flush t = true ∧ i ∈ ((cfg1.win 3).blk t).view.set := by
  have hN : cfg1.N = 50 := N_1
  have h1 : (i 1).val < 32000 := (i 1).isLt
  have h0 : (i 0).val < 512 := (i 0).isLt
  have ht : (i 1).val / 640 < cfg1.N := by omega
  obtain ⟨g0_0, g0_1, g1_0, g1_1, g2_0, g2_1, g3_0, g3_1⟩ := idx_facts ⟨(i 1).val / 640, ht⟩
  refine ⟨⟨(i 1).val / 640, ht⟩, flush1_3 _, ?_⟩
  show i ∈ ((View.whole main_v24).slice (win1_3.rect ⟨(i 1).val / 640, ht⟩)).set
  rw [View.set_slice_whole, Rect.mem_set_unit]
  intro a
  match a with
  | ⟨0, _⟩ =>
    show win1_3.index ⟨(i 1).val / 640, ht⟩ (0 : Fin 2) * 512 ≤ (i 0).val ∧ (i 0).val < win1_3.index ⟨(i 1).val / 640, ht⟩ (0 : Fin 2) * 512 + 512
    rw [g3_0]; omega
  | ⟨1, _⟩ =>
    show win1_3.index ⟨(i 1).val / 640, ht⟩ (1 : Fin 2) * 640 ≤ (i 1).val ∧ (i 1).val < win1_3.index ⟨(i 1).val / 640, ht⟩ (1 : Fin 2) * 640 + 640
    rw [g3_1]; show (i 1).val / 640 * 640 ≤ (i 1).val ∧ (i 1).val < (i 1).val / 640 * 640 + 640; omega

/-- After the region the result array is the logits of the entry arrays. -/
theorem final (c : Dev nD) : (dat1 V c).arrAt 3 cfg1.N = logitsEntry V c :=
  (dat1 V c).arrAt_eq_of_cover 3 (logitsEntry V c) (fun t _ => flushed_eq V c t) cover

end Cert.KernelIdeal.Logits

end
-- ==== Proof.Boundary.lean ====
/-
  The idealized kernel's two results as functions of its arguments.  The contents of the buffers at @main's boundaries fold from
  the launch memory: the host stretch before the regions gathers the embedding rows, drops `hidden`'s unit axis, cuts the fused
  gate matrices and bias rows into their three gates and gives the projection bias a unit axis; the GRU-step region leaves the
  new hidden state (twice: f32 and bf16); the logits region reads the bf16 copy, the projection matrix and the bias row; the
  last host operation gives the f32 copy its leading unit axis back.  Read at an index, each entry array of a region is an
  argument array at the index the cut or reshape names, so the regions' whole-array functions become the specification's.
-/
import proofs.«121000_j3753801417244_2_alg».proof.Proof.GruStepArray
import proofs.«121000_j3753801417244_2_alg».proof.Proof.LogitsArray
import Idealize.ShloMosaic.Lib.StableHlo.Run

set_option maxRecDepth 16384

noncomputable section

namespace Cert.KernelIdeal.Boundary

open Cert.KernelIdeal Cert.KernelIdeal.Gen Cert.GruSpec
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg)

/-- Equal rows, equal weights and equal biases give equal pre-activations. -/
theorem pre_congr {K : Nat} {x x' w w' : Fin K → EReal} {b b' : EReal} (hx : ∀ k, x k = x' k) (hw : ∀ k, w k = w' k) (hb : b = b') :
    pre x w b = pre x' w' b' := by
  obtain rfl : x = x' := funext hx
  obtain rfl : w = w' := funext hw
  rw [hb]

/-- The cell of equal pre-activations and equal old values. -/
theorem cell_congr {a1 a2 a3 a4 a5 a6 a7 b1 b2 b3 b4 b5 b6 b7 : EReal} (h1 : a1 = b1) (h2 : a2 = b2) (h3 : a3 = b3) (h4 : a4 = b4)
    (h5 : a5 = b5) (h6 : a6 = b6) (h7 : a7 = b7) : cell a1 a2 a3 a4 a5 a6 a7 = cell b1 b2 b3 b4 b5 b6 b7 := by
  rw [h1, h2, h3, h4, h5, h6, h7]

/-- The gathered embedding rows: what the GRU-step region finds as its batch input. -/
abbrev X (c : Dev nD) : Mat 512 1024 := V1 m ρ c main_v6

/-- The old hidden state without its unit axis. -/
abbrev H (c : Dev nD) : Mat 512 2048 := fun i => (m ((c.tc : Thread nD τ).loc main_arg1)) (ix3 (0 : Fin 1) (i 0) (i 1))

/-! ## The GRU-step region's entry arrays, at an index -/

/-- `hidden` reshaped to 512 × 2048 reads the one slab of the argument. -/
theorem h_at (c : Dev nD) (p : Fin 512) (k : Fin 2048) :
    (V1 m ρ c main_v7 : Mat 512 2048) (ix2 p k) = (m ((c.tc : Thread nD τ).loc main_arg1)) (ix3 (0 : Fin 1) p k) := by
  have e : (V1 m ρ c main_v7 : Mat 512 2048) = shapeCast S512x2048 (m ((c.tc : Thread nD τ).loc main_arg1)) shapeCasts_S1x512x2048_S512x2048 := by
    dsimp only [V1, W1, hostOps0]
    after_results
    rfl
  rw [e]
  exact shapeCast_1ab_ab_apply _ _ p k

/-- Gate r's input-side matrix is rows `0 …` of the fused one. -/
theorem wi_r_at (c : Dev nD) (J : Fin 2048) (k : Fin 1024) :
    (V1 m ρ c main_v8 : Mat 2048 1024) (ix2 J k) = (m ((c.tc : Thread nD τ).loc main_arg3)) (ix2 (gate 0 J) k) := by
  have e : (V1 m ρ c main_v8 : Mat 2048 1024) = extractStridedSlice S2048x1024 ![0, 0] (m ((c.tc : Thread nD τ).loc main_arg3)) slices_S6144x1024_S2048x1024_0_0 := by
    dsimp only [V1, W1, hostOps0]
    after_results
  rw [e]
  exact slice2_axis0_apply 0 _ _ J k (gate 0 J) (by show 0 * 2048 + J.val = 0 + J.val; omega)

/-- Gate z's input-side matrix is rows `2048 …` of the fused one. -/
theorem wi_z_at (c : Dev nD) (J : Fin 2048) (k : Fin 1024) :
    (V1 m ρ c main_v9 : Mat 2048 1024) (ix2 J k) = (m ((c.tc : Thread nD τ).loc main_arg3)) (ix2 (gate 1 J) k) := by
  have e : (V1 m ρ c main_v9 : Mat 2048 1024) = extractStridedSlice S2048x1024 ![2048, 0] (m ((c.tc : Thread nD τ).loc main_arg3)) slices_S6144x1024_S2048x1024_2048_0 := by
    dsimp only [V1, W1, hostOps0]
    after_results
  rw [e]
  exact slice2_axis0_apply 2048 _ _ J k (gate 1 J) (by show 1 * 2048 + J.val = 2048 + J.val; omega)

/-- Gate n's input-side matrix is rows `4096 …` of the fused one. -/
theorem wi_n_at (c : Dev nD) (J : Fin 2048) (k : Fin 1024) :
    (V1 m ρ c main_v10 : Mat 2048 1024) (ix2 J k) = (m ((c.tc : Thread nD τ).loc main_arg3)) (ix2 (gate 2 J) k) := by
  have e : (V1 m ρ c main_v10 : Mat 2048 1024) = extractStridedSlice S2048x1024 ![4096, 0] (m ((c.tc : Thread nD τ).loc main_arg3)) slices_S6144x1024_S2048x1024_4096_0 := by
    dsimp only [V1, W1, hostOps0]
    after_results
  rw [e]
  exact slice2_axis0_apply 4096 _ _ J k (gate 2 J) (by show 2 * 2048 + J.val = 4096 + J.val; omega)

/-- Gate r's hidden-side matrix is rows `0 …` of the fused one. -/
theorem wh_r_at (c : Dev nD) (J : Fin 2048) (k : Fin 2048) :
    (V1 m ρ c main_v11 : Mat 2048 2048) (ix2 J k) = (m ((c.tc : Thread nD τ).loc main_arg4)) (ix2 (gate 0 J) k) := by
  have e : (V1 m ρ c main_v11 : Mat 2048 2048) = extractStridedSlice S2048x2048 ![0, 0] (m ((c.tc : Thread nD τ).loc main_arg4)) slices_S6144x2048_S2048x2048_0_0 := by
    dsimp only [V1, W1, hostOps0]
    after_results
  rw [e]
  exact slice2_axis0_apply 0 _ _ J k (gate 0 J) (by show 0 * 2048 + J.val = 0 + J.val; omega)

/-- Gate z's hidden-side matrix is rows `2048 …` of the fused one. -/
theorem wh_z_at (c : Dev nD) (J : Fin 2048) (k : Fin 2048) :
    (V1 m ρ c main_v12 : Mat 2048 2048) (ix2 J k) = (m ((c.tc : Thread nD τ).loc main_arg4)) (ix2 (gate 1 J) k) := by
  have e : (V1 m ρ c main_v12 : Mat 2048 2048) = extractStridedSlice S2048x2048 ![2048, 0] (m ((c.tc : Thread nD τ).loc main_arg4)) slices_S6144x2048_S2048x2048_2048_0 := by
    dsimp only [V1, W1, hostOps0]
    after_results
  rw [e]
  exact slice2_axis0_apply 2048 _ _ J k (gate 1 J) (by show 1 * 2048 + J.val = 2048 + J.val; omega)

/-- Gate n's hidden-side matrix is rows `4096 …` of the fused one. -/
theorem wh_n_at (c : Dev nD) (J : Fin 2048) (k : Fin 2048) :
    (V1 m ρ c main_v13 : Mat 2048 2048) (ix2 J k) = (m ((c.tc : Thread nD τ).loc main_arg4)) (ix2 (gate 2 J) k) := by
  have e : (V1 m ρ c main_v13 : Mat 2048 2048) = extractStridedSlice S2048x2048 ![4096, 0] (m ((c.tc : Thread nD τ).loc main_arg4)) slices_S6144x2048_S2048x2048_4096_0 := by
    dsimp only [V1, W1, hostOps0]
    after_results
  rw [e]
  exact slice2_axis0_apply 4096 _ _ J k (gate 2 J) (by show 2 * 2048 + J.val = 4096 + J.val; omega)

/-- Gate r's input-side bias row is lanes `0 …` of the fused one, given a leading unit axis. -/
theorem bi_r_at (c : Dev nD) (J : Fin 2048) :
    (V1 m ρ c main_v16 : Mat 1 2048) (ix2 (0 : Fin 1) J) = (m ((c.tc : Thread nD τ).loc main_arg5)) (ix1 (gate 0 J)) := by
  have e : (V1 m ρ c main_v16 : Mat 1 2048) = extractStridedSlice S1x2048 ![0, 0] (shapeCast S1x6144 (m ((c.tc : Thread nD τ).loc main_arg5)) shapeCasts_S6144_S1x6144) slices_S1x6144_S1x2048_0_0 := by
    dsimp only [V1, W1, hostOps0]
    after_results
    rfl
  rw [e]
  refine (slice2_axis1_apply 0 _ _ (0 : Fin 1) J (gate 0 J) (by show 0 * 2048 + J.val = 0 + J.val; omega)).trans ?_
  exact shapeCast_a_1a_apply _ _ (0 : Fin 1) (gate 0 J)

/-- Gate z's input-side bias row is lanes `2048 …` of the fused one, given a leading unit axis. -/
theorem bi_z_at (c : Dev nD) (J : Fin 2048) :
    (V1 m ρ c main_v17 : Mat 1 2048) (ix2 (0 : Fin 1) J) = (m ((c.tc : Thread nD τ).loc main_arg5)) (ix1 (gate 1 J)) := by
  have e : (V1 m ρ c main_v17 : Mat 1 2048) = extractStridedSlice S1x2048 ![0, 2048] (shapeCast S1x6144 (m ((c.tc : Thread nD τ).loc main_arg5)) shapeCasts_S6144_S1x6144) slices_S1x6144_S1x2048_0_2048 := by
    dsimp only [V1, W1, hostOps0]
    after_results
    rfl
  rw [e]
  refine (slice2_axis1_apply 2048 _ _ (0 : Fin 1) J (gate 1 J) (by show 1 * 2048 + J.val = 2048 + J.val; omega)).trans ?_
  exact shapeCast_a_1a_apply _ _ (0 : Fin 1) (gate 1 J)

/-- Gate n's input-side bias row is lanes `4096 …` of the fused one, given a leading unit axis. -/
theorem bi_n_at (c : Dev nD) (J : Fin 2048) :
    (V1 m ρ c main_v18 : Mat 1 2048) (ix2 (0 : Fin 1) J) = (m ((c.tc : Thread nD τ).loc main_arg5)) (ix1 (gate 2 J)) := by
  have e : (V1 m ρ c main_v18 : Mat 1 2048) = extractStridedSlice S1x2048 ![0, 4096] (shapeCast S1x6144 (m ((c.tc : Thread nD τ).loc main_arg5)) shapeCasts_S6144_S1x6144) slices_S1x6144_S1x2048_0_4096 := by
    dsimp only [V1, W1, hostOps0]
    after_results
    rfl
  rw [e]
  refine (slice2_axis1_apply 4096 _ _ (0 : Fin 1) J (gate 2 J) (by show 2 * 2048 + J.val = 4096 + J.val; omega)).trans ?_
  exact shapeCast_a_1a_apply _ _ (0 : Fin 1) (gate 2 J)

/-- Gate r's hidden-side bias row is lanes `0 …` of the fused one, given a leading unit axis. -/
theorem bh_r_at (c : Dev nD) (J : Fin 2048) :
    (V1 m ρ c main_v19 : Mat 1 2048) (ix2 (0 : Fin 1) J) = (m ((c.tc : Thread nD τ).loc main_arg6)) (ix1 (gate 0 J)) := by
  have e : (V1 m ρ c main_v19 : Mat 1 2048) = extractStridedSlice S1x2048 ![0, 0] (shapeCast S1x6144 (m ((c.tc : Thread nD τ).loc main_arg6)) shapeCasts_S6144_S1x6144) slices_S1x6144_S1x2048_0_0 := by
    dsimp only [V1, W1, hostOps0]
    after_results
    rfl
  rw [e]
  refine (slice2_axis1_apply 0 _ _ (0 : Fin 1) J (gate 0 J) (by show 0 * 2048 + J.val = 0 + J.val; omega)).trans ?_
  exact shapeCast_a_1a_apply _ _ (0 : Fin 1) (gate 0 J)

/-- Gate z's hidden-side bias row is lanes `2048 …` of the fused one, given a leading unit axis. -/
theorem bh_z_at (c : Dev nD) (J : Fin 2048) :
    (V1 m ρ c main_v20 : Mat 1 2048) (ix2 (0 : Fin 1) J) = (m ((c.tc : Thread nD τ).loc main_arg6)) (ix1 (gate 1 J)) := by
  have e : (V1 m ρ c main_v20 : Mat 1 2048) = extractStridedSlice S1x2048 ![0, 2048] (shapeCast S1x6144 (m ((c.tc : Thread nD τ).loc main_arg6)) shapeCasts_S6144_S1x6144) slices_S1x6144_S1x2048_0_2048 := by
    dsimp only [V1, W1, hostOps0]
    after_results
    rfl
  rw [e]
  refine (slice2_axis1_apply 2048 _ _ (0 : Fin 1) J (gate 1 J) (by show 1 * 2048 + J.val = 2048 + J.val; omega)).trans ?_
  exact shapeCast_a_1a_apply _ _ (0 : Fin 1) (gate 1 J)

/-- Gate n's hidden-side bias row is lanes `4096 …` of the fused one, given a leading unit axis. -/
theorem bh_n_at (c : Dev nD) (J : Fin 2048) :
    (V1 m ρ c main_v21 : Mat 1 2048) (ix2 (0 : Fin 1) J) = (m ((c.tc : Thread nD τ).loc main_arg6)) (ix1 (gate 2 J)) := by
  have e : (V1 m ρ c main_v21 : Mat 1 2048) = extractStridedSlice S1x2048 ![0, 4096] (shapeCast S1x6144 (m ((c.tc : Thread nD τ).loc main_arg6)) shapeCasts_S6144_S1x6144) slices_S1x6144_S1x2048_0_4096 := by
    dsimp only [V1, W1, hostOps0]
    after_results
    rfl
  rw [e]
  refine (slice2_axis1_apply 4096 _ _ (0 : Fin 1) J (gate 2 J) (by show 2 * 2048 + J.val = 4096 + J.val; omega)).trans ?_
  exact shapeCast_a_1a_apply _ _ (0 : Fin 1) (gate 2 J)

/-- The GRU-step region's whole-array function of its entry arrays is the specification's new hidden state of the arguments. -/
theorem hidden_eq (c : Dev nD) : GruStep.newHidden (V1 m ρ) c = (hidden (X m ρ c) (H m c) (m ((c.tc : Thread nD τ).loc main_arg3)) (m ((c.tc : Thread nD τ).loc main_arg4)) (m ((c.tc : Thread nD τ).loc main_arg5)) (m ((c.tc : Thread nD τ).loc main_arg6))) := by
  funext i
  obtain ⟨p, J, rfl⟩ : ∃ (p : Fin 512) (J : Fin 2048), i = ix2 p J := ⟨i 0, i 1, eq_ix2 i⟩
  show GruStep.newHiddenAt (V1 m ρ) c p J = hiddenAt (X m ρ c) (H m c) (m ((c.tc : Thread nD τ).loc main_arg3)) (m ((c.tc : Thread nD τ).loc main_arg4)) (m ((c.tc : Thread nD τ).loc main_arg5)) (m ((c.tc : Thread nD τ).loc main_arg6)) p J
  unfold GruStep.newHiddenAt hiddenAt giAt ghAt
  exact cell_congr
    (pre_congr (fun _ => rfl) (fun k => wi_r_at m ρ c J k) (bi_r_at m ρ c J))
    (pre_congr (fun _ => rfl) (fun k => wi_z_at m ρ c J k) (bi_z_at m ρ c J))
    (pre_congr (fun _ => rfl) (fun k => wi_n_at m ρ c J k) (bi_n_at m ρ c J))
    (pre_congr (fun k => h_at m ρ c p k) (fun k => wh_r_at m ρ c J k) (bh_r_at m ρ c J))
    (pre_congr (fun k => h_at m ρ c p k) (fun k => wh_z_at m ρ c J k) (bh_z_at m ρ c J))
    (pre_congr (fun k => h_at m ρ c p k) (fun k => wh_n_at m ρ c J k) (bh_n_at m ρ c J))
    (h_at m ρ c p J)

/-! ## The logits region's entry arrays -/

/-- The bf16 copy of the new hidden state, as the logits region finds it. -/
theorem v2_hidden (c : Dev nD) : (V2 m ρ c main_v23_1 : Mat 512 2048) = (hidden (X m ρ c) (H m c) (m ((c.tc : Thread nD τ).loc main_arg3)) (m ((c.tc : Thread nD τ).loc main_arg4)) (m ((c.tc : Thread nD τ).loc main_arg5)) (m ((c.tc : Thread nD τ).loc main_arg6))) :=
  (W2_arr m ρ c 15).trans ((GruStep.final_bf16 (V1 m ρ) c).trans (hidden_eq m ρ c))

/-- The projection matrix is the argument: no host operation and no region writes it. -/
theorem v2_w (c : Dev nD) : (V2 m ρ c main_arg7 : Mat 32000 2048) = (m ((c.tc : Thread nD τ).loc main_arg7)) := by
  refine (W2_of_ne m ρ c main_arg7 (by decide)).trans ?_
  dsimp only [W1, hostOps0]
  after_results

/-- The projection bias with its unit axis reads the argument's lane. -/
theorem v2_b_at (c : Dev nD) (v : Fin 32000) : (V2 m ρ c main_v22 : Mat 1 32000) (ix2 (0 : Fin 1) v) = (m ((c.tc : Thread nD τ).loc main_arg8)) (ix1 v) := by
  have e : (V2 m ρ c main_v22 : Mat 1 32000) = shapeCast S1x32000 (m ((c.tc : Thread nD τ).loc main_arg8)) shapeCasts_S32000_S1x32000 := by
    refine (W2_of_ne m ρ c main_v22 (by decide)).trans ?_
    dsimp only [W1, hostOps0]
    after_results
    rfl
  rw [e]
  exact shapeCast_a_1a_apply _ _ (0 : Fin 1) v

/-- The logits region's whole-array function of its entry arrays is the specification's logits of the arguments. -/
theorem logits_eq (c : Dev nD) :
    Logits.logitsEntry (V2 m ρ) c = logits (hidden (X m ρ c) (H m c) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7)) (m ((c.tc : Thread nD τ).loc main_arg8)) := by
  funext i
  obtain ⟨p, v, rfl⟩ : ∃ (p : Fin 512) (v : Fin 32000), i = ix2 p v := ⟨i 0, i 1, eq_ix2 i⟩
  show Logits.logitEntryAt (V2 m ρ) c p v = logitAt (hidden (X m ρ c) (H m c) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7)) (m ((c.tc : Thread nD τ).loc main_arg8)) p v
  unfold Logits.logitEntryAt logitAt
  exact pre_congr (fun k => congrFun (v2_hidden m ρ c) (ix2 p k)) (fun k => congrFun (v2_w m ρ c) (ix2 v k)) (v2_b_at m ρ c v)

/-! ## The two results at the last boundary -/

/-- The logits buffer at the last boundary: the last host operation does not write it. -/
theorem logits_result (c : Dev nD) :
    (W4 m ρ c (Proc.devRef .tc main_v24) : Mat 512 32000) = logits (hidden (X m ρ c) (H m c) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7)) (m ((c.tc : Thread nD τ).loc main_arg8)) := by
  have e : W4 m ρ c (Proc.devRef .tc main_v24) = W3 m ρ c (Proc.devRef .tc main_v24) := by
    dsimp only [W4, hostOps2]
    after_results
  rw [e]
  exact (W3_arr m ρ c 3).trans ((Logits.final (V2 m ρ) c).trans (logits_eq m ρ c))

/-- The f32 copy of the new hidden state, untouched by the logits region. -/
theorem w3_hidden (c : Dev nD) : (W3 m ρ c (Proc.devRef .tc main_v23_0) : Mat 512 2048) = (hidden (X m ρ c) (H m c) (m ((c.tc : Thread nD τ).loc main_arg3)) (m ((c.tc : Thread nD τ).loc main_arg4)) (m ((c.tc : Thread nD τ).loc main_arg5)) (m ((c.tc : Thread nD τ).loc main_arg6))) :=
  (W3_of_ne m ρ c main_v23_0 (by decide)).trans ((W2_arr m ρ c 14).trans ((GruStep.final_f32 (V1 m ρ) c).trans (hidden_eq m ρ c)))

/-- The hidden-state result at the last boundary: the f32 copy with its leading unit axis. -/
theorem hidden_result (c : Dev nD) :
    (W4 m ρ c (Proc.devRef .tc main_v25) : (⟨3, ![1, 512, 2048]⟩ : Shape).Idx → EReal)
      = broadcastInDim S1x512x2048 ![1, 2] bcast_S512x2048_S1x512x2048_1_2 (hidden (X m ρ c) (H m c) (m ((c.tc : Thread nD τ).loc main_arg3)) (m ((c.tc : Thread nD τ).loc main_arg4)) (m ((c.tc : Thread nD τ).loc main_arg5)) (m ((c.tc : Thread nD τ).loc main_arg6))) := by
  have e : (W4 m ρ c (Proc.devRef .tc main_v25) : (⟨3, ![1, 512, 2048]⟩ : Shape).Idx → EReal)
      = broadcastInDim S1x512x2048 ![1, 2] bcast_S512x2048_S1x512x2048_1_2 (W3 m ρ c (Proc.devRef .tc main_v23_0)) := by
    dsimp only [W4, hostOps2]
    after_results
  rw [e, w3_hidden]

end Cert.KernelIdeal.Boundary

end
-- ==== Proof.RefValue.lean ====
/-
  The reference as the specification.  Read one operation at a time at an index: a fused pre-activation at `(p, r)` is the
  inner product of input row `p` with row `r` of the fused weight matrix (the transposes only exchange the two
  coordinates) plus the bias at `r`; the three column cuts at 0, 2048, 4096 are the three gates; the reference spells the
  logistic as `1 / (1 + exp (-x))`, which is the logistic of the extended reals by definition; the literal `1.0` is the
  extended real one.  So its new hidden state and its logits are the specification's functions of its arguments.
-/
import proofs.«121000_j3753801417244_2_alg».proof.Proof.Gen.ReferenceIdeal.Read
import proofs.«121000_j3753801417244_2_alg».proof.Proof.GruSpec

set_option maxRecDepth 16384

noncomputable section

namespace Cert.ReferenceIdeal.GruRef

open Cert.ReferenceIdeal Cert.ReferenceIdeal.Read Cert.GruSpec
open Idealize.ShloMosaic Idealize.ShloMosaic.ValueIdx

/-- The old hidden state without its unit axis. -/
abbrev Href (a1 : (⟨S1x512x2048, .f32⟩ : BufTy).Contents (Elt Ideal)) : Mat 512 2048 := fun i => a1 (ix3 (0 : Fin 1) (i 0) (i 1))

/-- An input-side fused pre-activation at `(p, r)`. -/
theorem gi_at (a0 : (⟨S512, .i32⟩ : BufTy).Contents (Elt Ideal)) (a2 : (⟨S32000x1024, .f32⟩ : BufTy).Contents (Elt Ideal)) (a3 : (⟨S6144x1024, .f32⟩ : BufTy).Contents (Elt Ideal)) (a5 : (⟨S6144, .f32⟩ : BufTy).Contents (Elt Ideal)) (p : Fin 512) (r : Fin 6144) :
    val_main_v12 (F := Ideal) a0 a2 a3 a5 (ix2 p r)
      = pre (fun k => (val_main_v6 (F := Ideal) a0 a2 : Mat 512 1024) (ix2 p k)) (fun k => a3 (ix2 r k)) (a5 (ix1 r)) := by
  have el : ∀ k, lidx_main_v9 (ix2 p r) k = ix2 p k := fun k => funext fun a => by
    match a with
    | ⟨0, _⟩ => rfl
    | ⟨1, _⟩ => rfl
  have er : ∀ k, idx_main_v8 (ridx_main_v9 (ix2 p r) k) = ix2 r k := fun k => funext fun a => by
    match a with
    | ⟨0, _⟩ => rfl
    | ⟨1, _⟩ => rfl
  have eb : idx_main_v10 (idx_main_v11 (ix2 p r)) = ix1 r := funext fun a => by
    match a with
    | ⟨0, _⟩ => rfl
  rw [val_main_v12_apply, val_main_v9_apply, val_main_v11_apply, val_main_v10_apply, eb]
  simp only [val_main_v8_apply, el, er]
  rfl

/-- A hidden-side fused pre-activation at `(p, r)`. -/
theorem gh_at (a1 : (⟨S1x512x2048, .f32⟩ : BufTy).Contents (Elt Ideal)) (a4 : (⟨S6144x2048, .f32⟩ : BufTy).Contents (Elt Ideal)) (a6 : (⟨S6144, .f32⟩ : BufTy).Contents (Elt Ideal)) (p : Fin 512) (r : Fin 6144) :
    val_main_v17 (F := Ideal) a1 a4 a6 (ix2 p r)
      = pre (fun k => Href a1 (ix2 p k)) (fun k => a4 (ix2 r k)) (a6 (ix1 r)) := by
  have el : ∀ k, idx_main_v7 (lidx_main_v14 (ix2 p r) k) = ix3 (0 : Fin 1) p k := fun k => funext fun a => Fin.ext (by
    have hp := p.isLt
    have hk := k.isLt
    match a with
    | ⟨0, _⟩ => rfl
    | ⟨1, _⟩ => show (p.val * 2048 + k.val) / 2048 % 512 = p.val; omega
    | ⟨2, _⟩ => show (p.val * 2048 + k.val) % 2048 = k.val; omega)
  have er : ∀ k, idx_main_v13 (ridx_main_v14 (ix2 p r) k) = ix2 r k := fun k => funext fun a => by
    match a with
    | ⟨0, _⟩ => rfl
    | ⟨1, _⟩ => rfl
  have eb : idx_main_v15 (idx_main_v16 (ix2 p r)) = ix1 r := funext fun a => by
    match a with
    | ⟨0, _⟩ => rfl
  rw [val_main_v17_apply, val_main_v14_apply, val_main_v16_apply, val_main_v15_apply, eb]
  simp only [val_main_v7_apply, val_main_v13_apply, el, er]
  rfl

/-- The old hidden state at `(p, J)`. -/
theorem h_at (a1 : (⟨S1x512x2048, .f32⟩ : BufTy).Contents (Elt Ideal)) (p : Fin 512) (J : Fin 2048) : val_main_v7 (F := Ideal) a1 (ix2 p J) = Href a1 (ix2 p J) := by
  rw [val_main_v7_apply]
  refine congrArg a1 (funext fun a => Fin.ext ?_)
  have hp := p.isLt
  have hJ := J.isLt
  match a with
  | ⟨0, _⟩ => rfl
  | ⟨1, _⟩ => show (p.val * 2048 + J.val) / 2048 % 512 = p.val; omega
  | ⟨2, _⟩ => show (p.val * 2048 + J.val) % 2048 = J.val; omega

/-- The reference's new hidden state is the specification's. -/
theorem hidden_ref (a0 : (⟨S512, .i32⟩ : BufTy).Contents (Elt Ideal)) (a1 : (⟨S1x512x2048, .f32⟩ : BufTy).Contents (Elt Ideal)) (a2 : (⟨S32000x1024, .f32⟩ : BufTy).Contents (Elt Ideal)) (a3 : (⟨S6144x1024, .f32⟩ : BufTy).Contents (Elt Ideal)) (a4 : (⟨S6144x2048, .f32⟩ : BufTy).Contents (Elt Ideal)) (a5 : (⟨S6144, .f32⟩ : BufTy).Contents (Elt Ideal)) (a6 : (⟨S6144, .f32⟩ : BufTy).Contents (Elt Ideal)) :
    val_main_v45 (F := Ideal) a0 a1 a2 a3 a4 a5 a6 = hidden (val_main_v6 (F := Ideal) a0 a2) (Href a1) a3 a4 a5 a6 := by
  funext i
  obtain ⟨p, J, rfl⟩ : ∃ (p : Fin 512) (J : Fin 2048), i = ix2 p J := ⟨i 0, i 1, eq_ix2 i⟩
  show _ = hiddenAt (val_main_v6 (F := Ideal) a0 a2) (Href a1) a3 a4 a5 a6 p J
  have hJ := J.isLt
  have c0 : ∀ (q : Fin 512), (ix2 q (gate 0 J) : S512x6144.Idx) = idx_main_v18 (ix2 q J) := fun q => funext fun a => Fin.ext (by
    match a with
    | ⟨0, _⟩ => rfl
    | ⟨1, _⟩ => show 0 * 2048 + J.val = J.val; omega)
  have c1 : ∀ (q : Fin 512), (ix2 q (gate 1 J) : S512x6144.Idx) = idx_main_v19 (ix2 q J) := fun q => funext fun a => Fin.ext (by
    match a with
    | ⟨0, _⟩ => rfl
    | ⟨1, _⟩ => show 1 * 2048 + J.val = 2048 + J.val; omega)
  have c2 : ∀ (q : Fin 512), (ix2 q (gate 2 J) : S512x6144.Idx) = idx_main_v20 (ix2 q J) := fun q => funext fun a => Fin.ext (by
    match a with
    | ⟨0, _⟩ => rfl
    | ⟨1, _⟩ => show 2 * 2048 + J.val = 4096 + J.val; omega)
  unfold hiddenAt giAt ghAt
  rw [← gi_at a0 a2 a3 a5 p (gate 0 J), ← gi_at a0 a2 a3 a5 p (gate 1 J), ← gi_at a0 a2 a3 a5 p (gate 2 J),
    ← gh_at a1 a4 a6 p (gate 0 J), ← gh_at a1 a4 a6 p (gate 1 J), ← gh_at a1 a4 a6 p (gate 2 J), ← h_at a1 p J, c0, c1, c2]
  unfold cell Ideal.logistic
  simp only [val_main_v45_apply, val_main_v43_apply, val_main_v44_apply, val_main_v42_apply, val_main_v41_apply, val_main_cst_4_apply,
    val_main_v40_apply, val_main_v39_apply, val_main_v38_apply, val_main_v37_apply, val_main_v36_apply, val_main_cst_3_apply,
    val_main_v35_apply, val_main_v34_apply, val_main_cst_2_apply, val_main_v33_apply, val_main_v32_apply, val_main_v31_apply,
    val_main_v30_apply, val_main_v29_apply, val_main_cst_1_apply, val_main_v28_apply, val_main_v27_apply, val_main_cst_apply,
    val_main_v26_apply, val_main_v25_apply, val_main_v24_apply, val_main_v18_apply, val_main_v19_apply, val_main_v20_apply,
    val_main_v21_apply, val_main_v22_apply, val_main_v23_apply,
    Ideal.addf_def, Ideal.mulf_def, Ideal.subf_def, Ideal.hostDivf_def, Ideal.hostUnary_exp_def, Ideal.hostUnary_tanh_def,
    Ideal.hostNegf_def, Ideal.negf_def, Ideal.ofBits_def, Ideal.ofBits_one_f32]

/-- The reference's logits are the specification's logits of its new hidden state. -/
theorem logits_ref (a0 : (⟨S512, .i32⟩ : BufTy).Contents (Elt Ideal)) (a1 : (⟨S1x512x2048, .f32⟩ : BufTy).Contents (Elt Ideal)) (a2 : (⟨S32000x1024, .f32⟩ : BufTy).Contents (Elt Ideal)) (a3 : (⟨S6144x1024, .f32⟩ : BufTy).Contents (Elt Ideal)) (a4 : (⟨S6144x2048, .f32⟩ : BufTy).Contents (Elt Ideal)) (a5 : (⟨S6144, .f32⟩ : BufTy).Contents (Elt Ideal)) (a6 : (⟨S6144, .f32⟩ : BufTy).Contents (Elt Ideal)) (a7 : (⟨S32000x2048, .f32⟩ : BufTy).Contents (Elt Ideal)) (a8 : (⟨S32000, .f32⟩ : BufTy).Contents (Elt Ideal)) :
    val_main_v50 (F := Ideal) a0 a1 a2 a3 a4 a5 a6 a7 a8
      = logits (hidden (val_main_v6 (F := Ideal) a0 a2) (Href a1) a3 a4 a5 a6) a7 a8 := by
  funext i
  obtain ⟨p, v, rfl⟩ : ∃ (p : Fin 512) (v : Fin 32000), i = ix2 p v := ⟨i 0, i 1, eq_ix2 i⟩
  show _ = logitAt (hidden (val_main_v6 (F := Ideal) a0 a2) (Href a1) a3 a4 a5 a6) a7 a8 p v
  have el : ∀ k, lidx_main_v47 (ix2 p v) k = ix2 p k := fun k => funext fun a => by
    match a with
    | ⟨0, _⟩ => rfl
    | ⟨1, _⟩ => rfl
  have er : ∀ k, idx_main_v46 (ridx_main_v47 (ix2 p v) k) = ix2 v k := fun k => funext fun a => by
    match a with
    | ⟨0, _⟩ => rfl
    | ⟨1, _⟩ => rfl
  have eb : idx_main_v48 (idx_main_v49 (ix2 p v)) = ix1 v := funext fun a => by
    match a with
    | ⟨0, _⟩ => rfl
  rw [val_main_v50_apply, val_main_v47_apply, val_main_v49_apply, val_main_v48_apply, eb, hidden_ref]
  simp only [val_main_v46_apply, el, er]
  rfl

end Cert.ReferenceIdeal.GruRef

end
-- ==== Proof.lean ====
/-
  One decoding step of a GRU language model: the embedding rows of 512 token ids, one GRU step on a hidden state of width 2048,
  and the projection of the new hidden state onto 32000 logits.  The kernel computes the step in a region of sixteen grid points
  (128 hidden columns each, the three gates' weight rows cut out of the fused matrices beforehand) and the projection in a
  region of fifty (640 logits each); the reference is the plain chain of two fused products, three column cuts, the gate
  arithmetic and one more product.

  Over the extended reals both compute, at batch row `p` and hidden column `j`,
      (1 - z) · tanh (gi_n + r · gh_n) + z · h,   r = logistic (gi_r + gh_r),   z = logistic (gi_z + gh_z),
  each pre-activation an inner product of a row of the input (or of the old hidden state) with row `2048 g + j` of a fused
  weight matrix plus that row's bias, and then, at `(p, v)`, the inner product of row `p` of the new hidden state with row `v`
  of the projection matrix plus its bias.  The two sides differ only in where they cut: rows of the weights before the product
  (kernel) or columns of the product after it (reference), tiles of the outputs (kernel) or none (reference); narrowing to
  bf16 is the identity on extended reals, and `tpu.logistic` is `1 / (1 + exp (-x))` by definition.  No law of arithmetic is
  used beyond these identifications, so the precondition is never opened.

  The frames of the two kernel programs are the generated ones; the reference's frame is its generated run with the results
  dropped; the ideal pass rewrote nothing, so `preserves` is `True`.
-/
import proofs.«121000_j3753801417244_2_alg».proof.Defs
import proofs.«121000_j3753801417244_2_alg».proof.Proof.Gen.Kernel
import proofs.«121000_j3753801417244_2_alg».proof.Proof.Gen.Kernel.Skeleton
import proofs.«121000_j3753801417244_2_alg».proof.Proof.Gen.Kernel.Launch
import proofs.«121000_j3753801417244_2_alg».proof.Proof.Gen.Kernel.Points
import proofs.«121000_j3753801417244_2_alg».proof.Proof.Gen.Kernel.Frame
import proofs.«121000_j3753801417244_2_alg».proof.Proof.Gen.KernelIdeal
import proofs.«121000_j3753801417244_2_alg».proof.Proof.Gen.KernelIdeal.Skeleton
import proofs.«121000_j3753801417244_2_alg».proof.Proof.Gen.KernelIdeal.Launch
import proofs.«121000_j3753801417244_2_alg».proof.Proof.Gen.KernelIdeal.Points
import proofs.«121000_j3753801417244_2_alg».proof.Proof.Gen.KernelIdeal.Frame
import proofs.«121000_j3753801417244_2_alg».proof.Proof.Gen.ReferenceIdeal
import proofs.«121000_j3753801417244_2_alg».proof.Proof.Gen.Pre_finite_inputs
import proofs.«121000_j3753801417244_2_alg».proof.Proof.Gen.ReferenceIdeal.Run
import proofs.«121000_j3753801417244_2_alg».proof.Proof.Gen.ReferenceIdeal.Read
import proofs.«121000_j3753801417244_2_alg».proof.Proof.KernelRun
import proofs.«121000_j3753801417244_2_alg».proof.Proof.Boundary
import proofs.«121000_j3753801417244_2_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

/-- The kernel's gathered embedding rows are the reference's: the same `gather` of the table at the same wrapped indices. -/
theorem gather_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Boundary.X m ρ c
      = Cert.ReferenceIdeal.Read.val_main_v6 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg2)) := by
  dsimp only [Cert.KernelIdeal.Boundary.X, Cert.KernelIdeal.Gen.V1, Cert.KernelIdeal.Gen.W1, Cert.KernelIdeal.Gen.hostOps0]
  after_results
  rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- From memories agreeing on the arguments both programs end with the specification's logits and new hidden state of
    those arguments. -/
theorem algebraic : Cert.algebraic_KernelIdeal_ReferenceIdeal := by
  intro m ρ m' ρ' _ hagree
  refine ⟨fun c => Cert.KernelIdeal.Gen.W4 m ρ c (Proc.devRef .tc Cert.KernelIdeal.main_v24),
    fun c => Cert.KernelIdeal.Gen.W4 m ρ c (Proc.devRef .tc Cert.KernelIdeal.main_v25),
    Cert.KernelIdeal.GruRun.run_boundary m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8⟩ := hagree c
    rw [Cert.ReferenceIdeal.Read.val_main_v50_eq, Cert.ReferenceIdeal.GruRef.logits_ref, h0, h1, h2, h3, h4, h5, h6, h7, h8]
    refine ((Cert.KernelIdeal.Boundary.logits_result m ρ c).trans ?_).symm
    rw [gather_eq]
  · obtain ⟨h0, h1, h2, h3, h4, h5, h6, h7, h8⟩ := hagree c
    rw [Cert.ReferenceIdeal.Read.val_main_v51_eq]
    unfold Cert.ReferenceIdeal.Read.val_main_v51
    rw [Cert.ReferenceIdeal.GruRef.hidden_ref, h0, h1, h2, h3, h4, h5, h6]
    refine ((Cert.KernelIdeal.Boundary.hidden_result m ρ c).trans ?_).symm
    rw [gather_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
